-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S8x64x64 : Shape := ⟨3, ![8, 64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1000000 32) (main_arg2 : FVec F S8x64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S8x64x64 .f32 := Host.absf main_arg2
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1000000 : Shape := ⟨2, ![2, 1000000]⟩
abbrev S8x64x64 : Shape := ⟨3, ![8, 64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x512 : Shape := ⟨2, ![100000, 512]⟩
abbrev S512x64 : Shape := ⟨2, ![512, 64]⟩
abbrev S1x64 : Shape := ⟨2, ![1, 64]⟩
abbrev S4000x512 : Shape := ⟨2, ![4000, 512]⟩
abbrev S4000x64 : Shape := ⟨2, ![4000, 64]⟩

abbrev nBuf : Space → Nat
  | .hbm => 185
  | .vmem => 6
  | .smem => 0
  | _ => 0

abbrev hbmTy0_0 (i : Nat) : BufTy := match i % 128 with
  | 0 => ⟨S100000x64, .f32⟩
  | 1 => ⟨S2x1000000, .i32⟩
  | 2 => ⟨S8x64x64, .f32⟩
  | 3 => ⟨S64, .f32⟩
  | 4 => ⟨S1x1000000, .i32⟩
  | 5 => ⟨S1000000, .i32⟩
  | 6 => ⟨S1x1000000, .i32⟩
  | 7 => ⟨S1000000, .i32⟩
  | 8 => ⟨S_, .f32⟩
  | 9 => ⟨S1000000, .f32⟩
  | 10 => ⟨S_, .f32⟩
  | 11 => ⟨S100000, .f32⟩
  | 12 => ⟨S1000000x1, .i32⟩
  | 13 => ⟨S100000, .f32⟩
  | 14 => ⟨S_, .f32⟩
  | 15 => ⟨S100000, .f32⟩
  | 16 => ⟨S100000, .i1⟩
  | 17 => ⟨S_, .f32⟩
  | 18 => ⟨S100000, .f32⟩
  | 19 => ⟨S100000, .f32⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000, .f32⟩
  | 34 => ⟨S1000000, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000, .f32⟩
  | 44 => ⟨S1000000, .f32⟩
  | 45 => ⟨S1000000x1, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S1000000x64, .f32⟩
  | 56 => ⟨S1000000x64, .f32⟩
  | 57 => ⟨S_, .f32⟩
  | 58 => ⟨S100000x64, .f32⟩
  | 59 => ⟨S1000000x1, .i32⟩
  | 60 => ⟨S100000x64, .f32⟩
  | 61 => ⟨S1000000x1, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x64, .f32⟩
  | 71 => ⟨S1000000x64, .f32⟩
  | 72 => ⟨S1000000x64, .f32⟩
  | 73 => ⟨S_, .f32⟩
  | 74 => ⟨S100000x64, .f32⟩
  | 75 => ⟨S1000000x1, .i32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S1000000x1, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x64, .f32⟩
  | 91 => ⟨S1000000x64, .f32⟩
  | 92 => ⟨S1000000x64, .f32⟩
  | 93 => ⟨S_, .f32⟩
  | 94 => ⟨S100000x64, .f32⟩
  | 95 => ⟨S1000000x1, .i32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S1000000x1, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x64, .f32⟩
  | 111 => ⟨S1000000x64, .f32⟩
  | 112 => ⟨S1000000x64, .f32⟩
  | 113 => ⟨S_, .f32⟩
  | 114 => ⟨S100000x64, .f32⟩
  | 115 => ⟨S1000000x1, .i32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S1000000x1, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S100000x64, .f32⟩

abbrev hbmTy0_1 (i : Nat) : BufTy := match i % 128 with
  | 0 => ⟨S1000000, .i32⟩
  | 1 => ⟨S1000000x1, .i32⟩
  | 2 => ⟨S1000000x64, .f32⟩
  | 3 => ⟨S1000000x64, .f32⟩
  | 4 => ⟨S1000000x64, .f32⟩
  | 5 => ⟨S_, .f32⟩
  | 6 => ⟨S100000x64, .f32⟩
  | 7 => ⟨S1000000x1, .i32⟩
  | 8 => ⟨S100000x64, .f32⟩
  | 9 => ⟨S_, .f32⟩
  | 10 => ⟨S100000x64, .f32⟩
  | 11 => ⟨S100000x64, .f32⟩
  | 12 => ⟨S100000x64, .f32⟩
  | 13 => ⟨S1000000x1, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1000000x64, .f32⟩
  | 24 => ⟨S1000000x64, .f32⟩
  | 25 => ⟨S_, .f32⟩
  | 26 => ⟨S100000x64, .f32⟩
  | 27 => ⟨S1000000x1, .i32⟩
  | 28 => ⟨S100000x64, .f32⟩
  | 29 => ⟨S_, .f32⟩
  | 30 => ⟨S100000x64, .f32⟩
  | 31 => ⟨S100000x64, .f32⟩
  | 32 => ⟨S100000x64, .f32⟩
  | 33 => ⟨S1000000x1, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x64, .f32⟩
  | 43 => ⟨S1000000x64, .f32⟩
  | 44 => ⟨S1000000x64, .f32⟩
  | 45 => ⟨S_, .f32⟩
  | 46 => ⟨S100000x64, .f32⟩
  | 47 => ⟨S1000000x1, .i32⟩
  | 48 => ⟨S100000x64, .f32⟩
  | 49 => ⟨S_, .f32⟩
  | 50 => ⟨S100000x64, .f32⟩
  | 51 => ⟨S100000x64, .f32⟩
  | 52 => ⟨S100000x64, .f32⟩
  | 53 => ⟨S100000x512, .f32⟩
  | 54 => ⟨S512x64, .f32⟩
  | 55 => ⟨S1x64, .f32⟩
  | 56 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_14 : Ref sig .tc := ⟨.hbm, 82, rfl⟩
abbrev main_v60 : Ref sig .tc := ⟨.hbm, 83, rfl⟩
abbrev main_v61 : Ref sig .tc := ⟨.hbm, 84, rfl⟩
abbrev main_c_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_18 : Ref sig .tc := ⟨.hbm, 102, rfl⟩
abbrev main_v76 : Ref sig .tc := ⟨.hbm, 103, rfl⟩
abbrev main_v77 : Ref sig .tc := ⟨.hbm, 104, rfl⟩
abbrev main_c_19 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_20 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_21 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_22 : Ref sig .tc := ⟨.hbm, 122, rfl⟩
abbrev main_v92 : Ref sig .tc := ⟨.hbm, 123, rfl⟩
abbrev main_v93 : Ref sig .tc := ⟨.hbm, 124, rfl⟩
abbrev main_c_23 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_24 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_25 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_26 : Ref sig .tc := ⟨.hbm, 142, rfl⟩
abbrev main_v108 : Ref sig .tc := ⟨.hbm, 143, rfl⟩
abbrev main_v109 : Ref sig .tc := ⟨.hbm, 144, rfl⟩
abbrev main_c_27 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_28 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_29 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_30 : Ref sig .tc := ⟨.hbm, 162, rfl⟩
abbrev main_v124 : Ref sig .tc := ⟨.hbm, 163, rfl⟩
abbrev main_v125 : Ref sig .tc := ⟨.hbm, 164, rfl⟩
abbrev main_c_31 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_32 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_33 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  concatenates_S100000x64_S100000x64_S100000x64_S100000x64_S100000x64_S100000x64_S100000x64_S100000x64_S100000x512_d1 : Shape.Concatenates [S100000x64, S100000x64, S100000x64, S100000x64, S100000x64, S100000x64, S100000x64, S100000x64] S100000x512 1
  shapeCasts_S8x64x64_S512x64 : S8x64x64.ShapeCasts S512x64
  shapeCasts_S64_S1x64 : S64.ShapeCasts S1x64
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S4000x512_S512x64_S4000x64_1_0_0_1_n_n_wf : DotDims.WF S4000x512 S512x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf

abbrev win0_0 : Pipeline.Window sig grid0 :=
  Pipeline.Window.ofSpec (Memref.whole main_v139) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v140) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v141) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v142) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S8x64x64 : Shape := ⟨3, ![8, 64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1x64x64 : Shape := ⟨3, ![1, 64, 64]⟩
abbrev S64x64 : Shape := ⟨2, ![64, 64]⟩
abbrev S1000000x64 : Shape := ⟨2, ![1000000, 64]⟩
abbrev S1x64 : Shape := ⟨2, ![1, 64]⟩

abbrev nBuf : Space → Nat
  | .hbm => 222
  | .vmem => 0
  | .smem => 0
  | _ => 0

abbrev hbmTy0_0 (i : Nat) : BufTy := match i % 128 with
  | 0 => ⟨S100000x64, .f32⟩
  | 1 => ⟨S2x1000000, .i32⟩
  | 2 => ⟨S8x64x64, .f32⟩
  | 3 => ⟨S64, .f32⟩
  | 4 => ⟨S1x1000000, .i32⟩
  | 5 => ⟨S1000000, .i32⟩
  | 6 => ⟨S1x1000000, .i32⟩
  | 7 => ⟨S1000000, .i32⟩
  | 8 => ⟨S1x1000000, .i32⟩
  | 9 => ⟨S1000000, .i32⟩
  | 10 => ⟨S1x1000000, .i32⟩
  | 11 => ⟨S1000000, .i32⟩
  | 12 => ⟨S_, .f32⟩
  | 13 => ⟨S1000000, .f32⟩
  | 14 => ⟨S_, .f32⟩
  | 15 => ⟨S100000, .f32⟩
  | 16 => ⟨S1000000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000, .f32⟩
  | 38 => ⟨S1000000, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000, .f32⟩
  | 48 => ⟨S1000000, .f32⟩
  | 49 => ⟨S1x64x64, .f32⟩
  | 50 => ⟨S64x64, .f32⟩
  | 51 => ⟨S100000x64, .f32⟩
  | 52 => ⟨S1000000x1, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x64, .f32⟩
  | 62 => ⟨S1000000x64, .f32⟩
  | 63 => ⟨S1000000x64, .f32⟩
  | 64 => ⟨S_, .f32⟩
  | 65 => ⟨S100000x64, .f32⟩
  | 66 => ⟨S1000000x1, .i32⟩
  | 67 => ⟨S100000x64, .f32⟩
  | 68 => ⟨S1x64x64, .f32⟩
  | 69 => ⟨S64x64, .f32⟩
  | 70 => ⟨S100000x64, .f32⟩
  | 71 => ⟨S100000x64, .f32⟩
  | 72 => ⟨S1000000x1, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x64, .f32⟩
  | 82 => ⟨S1000000x64, .f32⟩
  | 83 => ⟨S1000000x64, .f32⟩
  | 84 => ⟨S_, .f32⟩
  | 85 => ⟨S100000x64, .f32⟩
  | 86 => ⟨S1000000x1, .i32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S1x64x64, .f32⟩
  | 93 => ⟨S64x64, .f32⟩
  | 94 => ⟨S100000x64, .f32⟩
  | 95 => ⟨S100000x64, .f32⟩
  | 96 => ⟨S1000000x1, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S1000000x64, .f32⟩
  | 107 => ⟨S1000000x64, .f32⟩
  | 108 => ⟨S_, .f32⟩
  | 109 => ⟨S100000x64, .f32⟩
  | 110 => ⟨S1000000x1, .i32⟩
  | 111 => ⟨S100000x64, .f32⟩
  | 112 => ⟨S_, .f32⟩
  | 113 => ⟨S100000x64, .f32⟩
  | 114 => ⟨S100000x64, .f32⟩
  | 115 => ⟨S100000x64, .f32⟩
  | 116 => ⟨S1x64x64, .f32⟩
  | 117 => ⟨S64x64, .f32⟩
  | 118 => ⟨S100000x64, .f32⟩
  | 119 => ⟨S100000x64, .f32⟩
  | 120 => ⟨S1000000x1, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S100000x64, .f32⟩

abbrev hbmTy0_1 (i : Nat) : BufTy := match i % 128 with
  | 0 => ⟨S1000000x1, .i32⟩
  | 1 => ⟨S1000000x64, .f32⟩
  | 2 => ⟨S1000000x64, .f32⟩
  | 3 => ⟨S1000000x64, .f32⟩
  | 4 => ⟨S_, .f32⟩
  | 5 => ⟨S100000x64, .f32⟩
  | 6 => ⟨S1000000x1, .i32⟩
  | 7 => ⟨S100000x64, .f32⟩
  | 8 => ⟨S_, .f32⟩
  | 9 => ⟨S100000x64, .f32⟩
  | 10 => ⟨S100000x64, .f32⟩
  | 11 => ⟨S100000x64, .f32⟩
  | 12 => ⟨S1x64x64, .f32⟩
  | 13 => ⟨S64x64, .f32⟩
  | 14 => ⟨S100000x64, .f32⟩
  | 15 => ⟨S100000x64, .f32⟩
  | 16 => ⟨S1000000x1, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S1000000x64, .f32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S1x64x64, .f32⟩
  | 37 => ⟨S64x64, .f32⟩
  | 38 => ⟨S100000x64, .f32⟩
  | 39 => ⟨S100000x64, .f32⟩
  | 40 => ⟨S1000000x1, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x64, .f32⟩
  | 50 => ⟨S1000000x64, .f32⟩
  | 51 => ⟨S1000000x64, .f32⟩
  | 52 => ⟨S_, .f32⟩
  | 53 => ⟨S100000x64, .f32⟩
  | 54 => ⟨S1000000x1, .i32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S1x64x64, .f32⟩
  | 61 => ⟨S64x64, .f32⟩
  | 62 => ⟨S100000x64, .f32⟩
  | 63 => ⟨S100000x64, .f32⟩
  | 64 => ⟨S1000000x1, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S1000000x64, .f32⟩
  | 75 => ⟨S1000000x64, .f32⟩
  | 76 => ⟨S_, .f32⟩
  | 77 => ⟨S100000x64, .f32⟩
  | 78 => ⟨S1000000x1, .i32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S1x64x64, .f32⟩
  | 85 => ⟨S64x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_14 : Ref sig .tc := ⟨.hbm, 97, rfl⟩
abbrev main_v75 : Ref sig .tc := ⟨.hbm, 98, rfl⟩
abbrev main_v76 : Ref sig .tc := ⟨.hbm, 99, rfl⟩
abbrev main_c_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_c_18 : Ref sig .tc := ⟨.hbm, 121, rfl⟩
abbrev main_v95 : Ref sig .tc := ⟨.hbm, 122, rfl⟩
abbrev main_v96 : Ref sig .tc := ⟨.hbm, 123, rfl⟩
abbrev main_c_19 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_20 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_21 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_c_22 : Ref sig .tc := ⟨.hbm, 145, rfl⟩
abbrev main_v115 : Ref sig .tc := ⟨.hbm, 146, rfl⟩
abbrev main_v116 : Ref sig .tc := ⟨.hbm, 147, rfl⟩
abbrev main_c_23 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_24 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_25 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_c_26 : Ref sig .tc := ⟨.hbm, 169, rfl⟩
abbrev main_v135 : Ref sig .tc := ⟨.hbm, 170, rfl⟩
abbrev main_v136 : Ref sig .tc := ⟨.hbm, 171, rfl⟩
abbrev main_c_27 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_28 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_29 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_c_30 : Ref sig .tc := ⟨.hbm, 193, rfl⟩
abbrev main_v155 : Ref sig .tc := ⟨.hbm, 194, rfl⟩
abbrev main_v156 : Ref sig .tc := ⟨.hbm, 195, rfl⟩
abbrev main_c_31 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_32 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_33 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_call1_cst : Ref sig .tc := ⟨.hbm, 219, rfl⟩
abbrev main_call1_v0 : Ref sig .tc := ⟨.hbm, 220, rfl⟩
abbrev main_v177 : Ref sig .tc := ⟨.hbm, 221, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  slices_S8x64x64_S1x64x64_0_0_0 : S8x64x64.Slices ![0, 0, 0] S1x64x64
  shapeCasts_S1x64x64_S64x64 : S1x64x64.ShapeCasts S64x64
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KernelFrame.lean ====
/-
  The frame of the program in namespace Cert.Kernel, at any float instance.

  @main is three stretches of host operations (the edge normalisation, the seven graph propagations, the
  concatenation of the eight Chebyshev terms, the two reshapes of weight and bias) followed by one pipelined region
  over a grid of 25 points. Point t stages rows 4000·t … 4000·t+3999 of the concatenated terms, the whole
  [512, 64] weight matrix and the [1, 64] bias row; the body multiplies, adds the bias row, takes the maximum with
  zero and stores the whole [4000, 64] block, which is written back to rows 4000·t … of the result.

  `entry` is what every buffer holds when the region is entered (the fold of the host operations over the launch
  memory, never unfolded here); no host operation writes an argument, so the four arguments are found as launched.
  The body is run once, symbolically, on whole staging buffers: it leaves the three input buffers as they were and
  the output buffer at `stored`, the one covering store of the body's arithmetic (the payload `k0_pay1`) of the three
  loaded blocks. From that: the pipeline's proof data, the obligation at a generic point, the run of @main to the
  library's frame post, and the frame claim's post read off it.
-/
import proofs.«148577_j7748121002165_1_alg».proof.Proof.Gen.Kernel.Launch
import proofs.«148577_j7748121002165_1_alg».proof.Proof.Gen.Kernel.Skeleton
import proofs.«148577_j7748121002165_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the three stretches of host operations, from the launch memory `m`. -/
abbrev entry (c : Dev nD) (b : Ref sig .tc) : Buf (Elt F) ((c : Thread nD τ).loc b) :=
  StableHlo.after (List.flatten [hostOps0, hostOps0_1, hostOps0_2]) (fun b => m (c, b)) b

/-- A host operation allocates nothing. -/
theorem stretch0_fresh : (hostOps0 : List (HloOp τ sig (Elt F))).Forall fun op => op.fresh = ∅ := by
  simp only [List.Forall]; repeat' constructor
theorem stretch1_fresh : (hostOps0_1 : List (HloOp τ sig (Elt F))).Forall fun op => op.fresh = ∅ := by
  simp only [List.Forall]; repeat' constructor
set_option maxHeartbeats 4000000 in
theorem stretch2_fresh : (hostOps0_2 : List (HloOp τ sig (Elt F))).Forall fun op => op.fresh = ∅ := by
  simp only [List.Forall]; repeat' constructor

/-- @main is its host stretches, then the region: the region is entered at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨stretch0_fresh, stretch1_fresh, stretch2_fresh⟩) main_chain

/-- No host operation writes an argument: each is found as launched. -/
theorem not_written (a : Ref sig .tc)
    (ha : (List.flatten [hostOps0, hostOps0_1, hostOps0_2] : List (HloOp τ sig (Elt F))).Forall
      fun op => Proc.devRef .tc a ∉ op.writes) (c : Dev nD) :
    entry m c a = m ((c : Thread nD τ).loc a) :=
  StableHlo.after_of_forall_not_mem (b := Proc.devRef .tc a) _ _ (List.forall_iff_forall_mem.mp ha)

set_option maxHeartbeats 4000000 in
theorem entry_x (c : Dev nD) : entry m c main_arg0 = m ((c : Thread nD τ).loc main_arg0) :=
  not_written m main_arg0 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (by decide)) c
set_option maxHeartbeats 4000000 in
theorem entry_edges (c : Dev nD) : entry m c main_arg1 = m ((c : Thread nD τ).loc main_arg1) :=
  not_written m main_arg1 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (by decide)) c
set_option maxHeartbeats 4000000 in
theorem entry_weight (c : Dev nD) : entry m c main_arg2 = m ((c : Thread nD τ).loc main_arg2) :=
  not_written m main_arg2 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (by decide)) c
set_option maxHeartbeats 4000000 in
theorem entry_bias (c : Dev nD) : entry m c main_arg3 = m ((c : Thread nD τ).loc main_arg3) :=
  not_written m main_arg3 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (by decide)) c

/-! ## The windows' blocks -/

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- An input window's current staging buffer holds its block at every point, whether the point fetches it or the
    block index has not moved since it was fetched. -/
theorem held0_of {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c)
    (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c)
    (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-! ## The frame claim's post from a run to the library's frame post -/

/-- No window stages an argument, so the frame post leaves each argument at its region-entry contents, which are
    its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (entry_x m c),
     ((h c).2 main_arg1 (Pipeline.mem_restRefs_of main_arg1 (by decide) (by decide))).trans (entry_edges m c),
     ((h c).2 main_arg2 (Pipeline.mem_restRefs_of main_arg2 (by decide) (by decide))).trans (entry_weight m c),
     ((h c).2 main_arg3 (Pipeline.mem_restRefs_of main_arg3 (by decide) (by decide))).trans (entry_bias m c)⟩) h

/-! ## The body -/

/-- The body's four accesses are the whole of each staging buffer. -/
abbrev allT : Rect S4000x512 := Rect.unit (s := S4000x512) ![0, 0] S4000x512.size inb_S4000x512_S4000x512_0_0
abbrev allW : Rect S512x64 := Rect.unit (s := S512x64) ![0, 0] S512x64.size inb_S512x64_S512x64_0_0
abbrev allB : Rect S1x64 := Rect.unit (s := S1x64) ![0, 0] S1x64.size inb_S1x64_S1x64_0_0
abbrev allO : Rect S4000x64 := Rect.unit (s := S4000x64) ![0, 0] S4000x64.size inb_S4000x64_S4000x64_0_0

/-- What the body leaves in the output buffer: its one store, of the body's arithmetic of the three loaded blocks. -/
def stored (t : Vec F S4000x512 .f32) (w : Vec F S512x64 .f32) (b : Vec F S1x64 .f32) : Vec F S4000x64 .f32 :=
  View.canon [⟨allO, k0_pay1 (View.ld t allT) (View.ld w allW) (View.ld b allB)⟩]

/-- The one store covers the output buffer. -/
theorem stored_covers (p0 : Vec F S4000x64 .f32) (y : S4000x64.Idx) :
    ∃ pc ∈ ([⟨allO, p0⟩] : List (View.Piece (Elt F) S4000x64 .f32)), y ∈ pc.1.set :=
  View.cover_of_tiled [⟨allO, p0⟩] S4000x64.size (by rfl) y

set_option maxHeartbeats 1000000 in
/-- The body on whole staging buffers, the inputs' at contents `t`, `w`, `b` and the output's at anything: it runs
    without a fault, leaves the inputs as they were and the output at `stored t w b`. -/
theorem body_triple (c : Dev nD) (E : Set ℕ) (i : grid0.Coords)
    (arg1 : Memref sig .tc .vmem S4000x512 .f32) (harg1 : arg1.IsWhole)
    (arg2 : Memref sig .tc .vmem S512x64 .f32) (harg2 : arg2.IsWhole)
    (arg3 : Memref sig .tc .vmem S1x64 .f32) (harg3 : arg3.IsWhole)
    (arg4 : Memref sig .tc .vmem S4000x64 .f32) (harg4 : arg4.IsWhole)
    (t : Vec F S4000x512 .f32) (w : Vec F S512x64 .f32) (b : Vec F S1x64 .f32) (K : PUnit → sProp 𝕄) :
    iprop(owns (c : Thread nD τ) arg1 fullShare t ∗ owns (c : Thread nD τ) arg2 fullShare w
        ∗ owns (c : Thread nD τ) arg3 fullShare b ∗ (∃ d, owns (c : Thread nD τ) arg4 fullShare d)
        ∗ (iprop(owns (c : Thread nD τ) arg1 fullShare t ∗ owns (c : Thread nD τ) arg2 fullShare w
            ∗ owns (c : Thread nD τ) arg3 fullShare b ∗ owns (c : Thread nD τ) arg4 fullShare (stored t w b)) -∗ K ⟨⟩))
      ⊢ wp frame (wpE (defs₀ (F := F)) Variants.none c none) E
          (cc0__cheb_combine_kernel i arg1 harg1 arg2 harg2 arg3 harg3 arg4 harg4) K := by
  simp only [cc0__cheb_combine_kernel_eq_skeleton]; unfold cc0__cheb_combine_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The pipeline's proof data -/

/-- On core `c`: the arrays as the region finds them; after the body at point `t` each input buffer at its block and
    the output buffer at `stored` of the three blocks; the invariant is the scoped rest and the generator register,
    untouched; nothing owed; full shares. -/
def pdat (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem arrays_eq (c : Dev nD) (w : Fin cfg0.W) : (pdat m 0 c).A w = entry m c (Pipeline.arrRef spec0 w) := by
  dsimp only [pdat]

theorem after0 (c : Dev nD) (t : Fin cfg0.N) : (pdat m 0 c).after 0 t = blockAt m c 0 t := by dsimp only [pdat]
theorem after1 (c : Dev nD) (t : Fin cfg0.N) : (pdat m 0 c).after 1 t = blockAt m c 1 t := by dsimp only [pdat]
theorem after2 (c : Dev nD) (t : Fin cfg0.N) : (pdat m 0 c).after 2 t = blockAt m c 2 t := by dsimp only [pdat]
theorem after3 (c : Dev nD) (t : Fin cfg0.N) :
    (pdat m 0 c).after 3 t = stored (blockAt m c 0 t) (blockAt m c 1 t) (blockAt m c 2 t) := by dsimp only [pdat]

theorem held0 (c : Dev nD) (t : Fin cfg0.N) (d) : (pdat m 0 c).before 0 t d = blockAt m c 0 t :=
  held0_of m (pdat m 0 c) (arrays_eq m c 0) (after0 m c) t d
theorem held1 (c : Dev nD) (t : Fin cfg0.N) (d) : (pdat m 0 c).before 1 t d = blockAt m c 1 t :=
  held1_of m (pdat m 0 c) (arrays_eq m c 1) (after1 m c) t d
theorem held2 (c : Dev nD) (t : Fin cfg0.N) (d) : (pdat m 0 c).before 2 t d = blockAt m c 2 t :=
  held2_of m (pdat m 0 c) (arrays_eq m c 2) (after2 m c) t d

/-! ## The body obligation at a generic point -/

def bodyPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d)))

def bodyPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t))

/-- At any point the input buffers hold their blocks, so the body's triple applies; the invariant and what the core
    owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2]
  rw [show (pdat m 0 c).Φ t.succ = (pdat m 0 c).Φ t.castSucc from rfl,
    show (pdat m 0 c).owesAt () t.succ = (pdat m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) :
    BodyObligation (pdat (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates without a fault; afterwards every window's array holds what the
    library computes from the proof data, and every other unscoped buffer what it held at the region's entry. -/
theorem run_main : θ_run defs (onTc (τ := τ) (main (F := F))) (s₀ m ρ) (Pipeline.FramePost cfgs (pdat m) 0 (entry m)) :=
  Pipeline.θ_run_frame cfgs (pdat m) (0 : Fin 1) launch0 defs₀ Variants.none m ρ main
    (hbody := fun c => (body_obligation m c).loose) (hshare := fun c => (pdat m 0 c).share_full fun _ => rfl)
    (howed := fun _ _ => rfl) (V := entry m) (hmain := main_to_region m Variants.none) (hA := arrays_eq m)
    (hΦ := fun _ _ => rfl)

/-- The frame: @main runs to the end, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (pdat m) (run_main m ρ)

end Cert.Kernel.Launched

end
-- ==== Proof.KernelIdealFrame.lean ====
/-
  The frame of the program in namespace Cert.KernelIdeal, at any float instance.

  @main is three stretches of host operations (the edge normalisation, the seven graph propagations, the
  concatenation of the eight Chebyshev terms, the two reshapes of weight and bias) followed by one pipelined region
  over a grid of 25 points. Point t stages rows 4000·t … 4000·t+3999 of the concatenated terms, the whole
  [512, 64] weight matrix and the [1, 64] bias row; the body multiplies, adds the bias row, takes the maximum with
  zero and stores the whole [4000, 64] block, which is written back to rows 4000·t … of the result.

  `entry` is what every buffer holds when the region is entered (the fold of the host operations over the launch
  memory, never unfolded here); no host operation writes an argument, so the four arguments are found as launched.
  The body is run once, symbolically, on whole staging buffers: it leaves the three input buffers as they were and
  the output buffer at `stored`, the one covering store of the body's arithmetic (the payload `k0_pay1`) of the three
  loaded blocks. From that: the pipeline's proof data, the obligation at a generic point, the run of @main to the
  library's frame post, and the frame claim's post read off it.
-/
import proofs.«148577_j7748121002165_1_alg».proof.Proof.Gen.KernelIdeal.Launch
import proofs.«148577_j7748121002165_1_alg».proof.Proof.Gen.KernelIdeal.Skeleton
import proofs.«148577_j7748121002165_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the three stretches of host operations, from the launch memory `m`. -/
abbrev entry (c : Dev nD) (b : Ref sig .tc) : Buf (Elt F) ((c : Thread nD τ).loc b) :=
  StableHlo.after (List.flatten [hostOps0, hostOps0_1, hostOps0_2]) (fun b => m (c, b)) b

/-- A host operation allocates nothing. -/
theorem stretch0_fresh : (hostOps0 : List (HloOp τ sig (Elt F))).Forall fun op => op.fresh = ∅ := by
  simp only [List.Forall]; repeat' constructor
theorem stretch1_fresh : (hostOps0_1 : List (HloOp τ sig (Elt F))).Forall fun op => op.fresh = ∅ := by
  simp only [List.Forall]; repeat' constructor
set_option maxHeartbeats 4000000 in
theorem stretch2_fresh : (hostOps0_2 : List (HloOp τ sig (Elt F))).Forall fun op => op.fresh = ∅ := by
  simp only [List.Forall]; repeat' constructor

/-- @main is its host stretches, then the region: the region is entered at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨stretch0_fresh, stretch1_fresh, stretch2_fresh⟩) main_chain

/-- No host operation writes an argument: each is found as launched. -/
theorem not_written (a : Ref sig .tc)
    (ha : (List.flatten [hostOps0, hostOps0_1, hostOps0_2] : List (HloOp τ sig (Elt F))).Forall
      fun op => Proc.devRef .tc a ∉ op.writes) (c : Dev nD) :
    entry m c a = m ((c : Thread nD τ).loc a) :=
  StableHlo.after_of_forall_not_mem (b := Proc.devRef .tc a) _ _ (List.forall_iff_forall_mem.mp ha)

set_option maxHeartbeats 4000000 in
theorem entry_x (c : Dev nD) : entry m c main_arg0 = m ((c : Thread nD τ).loc main_arg0) :=
  not_written m main_arg0 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (by decide)) c
set_option maxHeartbeats 4000000 in
theorem entry_edges (c : Dev nD) : entry m c main_arg1 = m ((c : Thread nD τ).loc main_arg1) :=
  not_written m main_arg1 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (by decide)) c
set_option maxHeartbeats 4000000 in
theorem entry_weight (c : Dev nD) : entry m c main_arg2 = m ((c : Thread nD τ).loc main_arg2) :=
  not_written m main_arg2 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (by decide)) c
set_option maxHeartbeats 4000000 in
theorem entry_bias (c : Dev nD) : entry m c main_arg3 = m ((c : Thread nD τ).loc main_arg3) :=
  not_written m main_arg3 (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (by decide)) c

/-! ## The windows' blocks -/

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- An input window's current staging buffer holds its block at every point, whether the point fetches it or the
    block index has not moved since it was fetched. -/
theorem held0_of {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c)
    (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c)
    (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-! ## The frame claim's post from a run to the library's frame post -/

/-- No window stages an argument, so the frame post leaves each argument at its region-entry contents, which are
    its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (entry_x m c),
     ((h c).2 main_arg1 (Pipeline.mem_restRefs_of main_arg1 (by decide) (by decide))).trans (entry_edges m c),
     ((h c).2 main_arg2 (Pipeline.mem_restRefs_of main_arg2 (by decide) (by decide))).trans (entry_weight m c),
     ((h c).2 main_arg3 (Pipeline.mem_restRefs_of main_arg3 (by decide) (by decide))).trans (entry_bias m c)⟩) h

/-! ## The body -/

/-- The body's four accesses are the whole of each staging buffer. -/
abbrev allT : Rect S4000x512 := Rect.unit (s := S4000x512) ![0, 0] S4000x512.size inb_S4000x512_S4000x512_0_0
abbrev allW : Rect S512x64 := Rect.unit (s := S512x64) ![0, 0] S512x64.size inb_S512x64_S512x64_0_0
abbrev allB : Rect S1x64 := Rect.unit (s := S1x64) ![0, 0] S1x64.size inb_S1x64_S1x64_0_0
abbrev allO : Rect S4000x64 := Rect.unit (s := S4000x64) ![0, 0] S4000x64.size inb_S4000x64_S4000x64_0_0

/-- What the body leaves in the output buffer: its one store, of the body's arithmetic of the three loaded blocks. -/
def stored (t : Vec F S4000x512 .f32) (w : Vec F S512x64 .f32) (b : Vec F S1x64 .f32) : Vec F S4000x64 .f32 :=
  View.canon [⟨allO, k0_pay1 (View.ld t allT) (View.ld w allW) (View.ld b allB)⟩]

/-- The one store covers the output buffer. -/
theorem stored_covers (p0 : Vec F S4000x64 .f32) (y : S4000x64.Idx) :
    ∃ pc ∈ ([⟨allO, p0⟩] : List (View.Piece (Elt F) S4000x64 .f32)), y ∈ pc.1.set :=
  View.cover_of_tiled [⟨allO, p0⟩] S4000x64.size (by rfl) y

set_option maxHeartbeats 1000000 in
/-- The body on whole staging buffers, the inputs' at contents `t`, `w`, `b` and the output's at anything: it runs
    without a fault, leaves the inputs as they were and the output at `stored t w b`. -/
theorem body_triple (c : Dev nD) (E : Set ℕ) (i : grid0.Coords)
    (arg1 : Memref sig .tc .vmem S4000x512 .f32) (harg1 : arg1.IsWhole)
    (arg2 : Memref sig .tc .vmem S512x64 .f32) (harg2 : arg2.IsWhole)
    (arg3 : Memref sig .tc .vmem S1x64 .f32) (harg3 : arg3.IsWhole)
    (arg4 : Memref sig .tc .vmem S4000x64 .f32) (harg4 : arg4.IsWhole)
    (t : Vec F S4000x512 .f32) (w : Vec F S512x64 .f32) (b : Vec F S1x64 .f32) (K : PUnit → sProp 𝕄) :
    iprop(owns (c : Thread nD τ) arg1 fullShare t ∗ owns (c : Thread nD τ) arg2 fullShare w
        ∗ owns (c : Thread nD τ) arg3 fullShare b ∗ (∃ d, owns (c : Thread nD τ) arg4 fullShare d)
        ∗ (iprop(owns (c : Thread nD τ) arg1 fullShare t ∗ owns (c : Thread nD τ) arg2 fullShare w
            ∗ owns (c : Thread nD τ) arg3 fullShare b ∗ owns (c : Thread nD τ) arg4 fullShare (stored t w b)) -∗ K ⟨⟩))
      ⊢ wp frame (wpE (defs₀ (F := F)) Variants.none c none) E
          (cc0__cheb_combine_kernel i arg1 harg1 arg2 harg2 arg3 harg3 arg4 harg4) K := by
  simp only [cc0__cheb_combine_kernel_eq_skeleton]; unfold cc0__cheb_combine_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The pipeline's proof data -/

/-- On core `c`: the arrays as the region finds them; after the body at point `t` each input buffer at its block and
    the output buffer at `stored` of the three blocks; the invariant is the scoped rest and the generator register,
    untouched; nothing owed; full shares. -/
def pdat (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem arrays_eq (c : Dev nD) (w : Fin cfg0.W) : (pdat m 0 c).A w = entry m c (Pipeline.arrRef spec0 w) := by
  dsimp only [pdat]

theorem after0 (c : Dev nD) (t : Fin cfg0.N) : (pdat m 0 c).after 0 t = blockAt m c 0 t := by dsimp only [pdat]
theorem after1 (c : Dev nD) (t : Fin cfg0.N) : (pdat m 0 c).after 1 t = blockAt m c 1 t := by dsimp only [pdat]
theorem after2 (c : Dev nD) (t : Fin cfg0.N) : (pdat m 0 c).after 2 t = blockAt m c 2 t := by dsimp only [pdat]
theorem after3 (c : Dev nD) (t : Fin cfg0.N) :
    (pdat m 0 c).after 3 t = stored (blockAt m c 0 t) (blockAt m c 1 t) (blockAt m c 2 t) := by dsimp only [pdat]

theorem held0 (c : Dev nD) (t : Fin cfg0.N) (d) : (pdat m 0 c).before 0 t d = blockAt m c 0 t :=
  held0_of m (pdat m 0 c) (arrays_eq m c 0) (after0 m c) t d
theorem held1 (c : Dev nD) (t : Fin cfg0.N) (d) : (pdat m 0 c).before 1 t d = blockAt m c 1 t :=
  held1_of m (pdat m 0 c) (arrays_eq m c 1) (after1 m c) t d
theorem held2 (c : Dev nD) (t : Fin cfg0.N) (d) : (pdat m 0 c).before 2 t d = blockAt m c 2 t :=
  held2_of m (pdat m 0 c) (arrays_eq m c 2) (after2 m c) t d

/-! ## The body obligation at a generic point -/

def bodyPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d)))

def bodyPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t))

/-- At any point the input buffers hold their blocks, so the body's triple applies; the invariant and what the core
    owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2]
  rw [show (pdat m 0 c).Φ t.succ = (pdat m 0 c).Φ t.castSucc from rfl,
    show (pdat m 0 c).owesAt () t.succ = (pdat m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) :
    BodyObligation (pdat (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates without a fault; afterwards every window's array holds what the
    library computes from the proof data, and every other unscoped buffer what it held at the region's entry. -/
theorem run_main : θ_run defs (onTc (τ := τ) (main (F := F))) (s₀ m ρ) (Pipeline.FramePost cfgs (pdat m) 0 (entry m)) :=
  Pipeline.θ_run_frame cfgs (pdat m) (0 : Fin 1) launch0 defs₀ Variants.none m ρ main
    (hbody := fun c => (body_obligation m c).loose) (hshare := fun c => (pdat m 0 c).share_full fun _ => rfl)
    (howed := fun _ _ => rfl) (V := entry m) (hmain := main_to_region m Variants.none) (hA := arrays_eq m)
    (hΦ := fun _ _ => rfl)

/-- The frame: @main runs to the end, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (pdat m) (run_main m ρ)

end Cert.KernelIdeal.Launched

end
-- ==== Proof.KernelPayload.lean ====
/-
  The body's arithmetic at one element of the output block, on the extended reals.

  The body holds a [4000, 512] block `t` of the concatenated Chebyshev terms, the [512, 64] matrix `w` and the
  [1, 64] bias row `b`. It rounds `t` and `w` to bf16 (the identity on the extended reals), multiplies them into a
  zero accumulator (so the product is the plain sum over the 512 contracted columns), adds the bias row to every
  row, and takes the maximum with zero:
      out (y0, y1) = max (Σ_{q < 512} t (y0, q) · w (q, y1) + b (0, y1)) 0.
-/
import proofs.«148577_j7748121002165_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The product's dimension numbers: rows of the left operand, columns of the right, one contracted axis of 512. -/
abbrev dims : DotDims S4000x512 S512x64 S4000x64 := dot_S4000x512_S512x64_S4000x64_1_0_0_1_n_n

theorem lhs_row (j : S4000x64.Idx) (q : dims.contr.Idx) : (dims.lhsIdx j q 0).val = (j 0).val := by
  unfold DotDims.lhsIdx
  rw [dif_neg (show ¬(0 : Fin S4000x512.rank) ∈ dims.lhsBatch by decide),
    dif_pos (show (0 : Fin S4000x512.rank) ∈ dims.lhsNonContracting by decide)]
  rfl
theorem lhs_col (j : S4000x64.Idx) (q : dims.contr.Idx) : (dims.lhsIdx j q 1).val = (q ⟨0, by decide⟩).val :=
  dims.lhsIdx_val_of_single rfl j q
theorem rhs_row (j : S4000x64.Idx) (q : dims.contr.Idx) : (dims.rhsIdx j q 0).val = (q ⟨0, by decide⟩).val :=
  dims.rhsIdx_val_of_single rfl j q
theorem rhs_col (j : S4000x64.Idx) (q : dims.contr.Idx) : (dims.rhsIdx j q 1).val = (j 1).val := by
  unfold DotDims.rhsIdx
  rw [dif_neg (show ¬(1 : Fin S512x64.rank) ∈ dims.rhsBatch by decide),
    dif_pos (show (1 : Fin S512x64.rank) ∈ dims.rhsNonContracting by decide)]
  rfl

/-- The product into a zero accumulator, at row `y0` and column `y1`: the sum over the 512 contracted columns. -/
theorem matmul_at (a : FVec Ideal S4000x512 .bf16) (b : FVec Ideal S512x64 .bf16) (y0 : Fin 4000) (y1 : Fin 64) :
    matmul dims none a b (constant S4000x64 .f32 0x00000000#32) (ix2 y0 y1)
      = ∑ q : Fin 512, a (ix2 y0 q) * b (ix2 q y1) := by
  simp only [matmul]
  rw [Ideal.matmul_constant_zero_apply, ← Equiv.sum_comp (ValueIdx.contrEquiv1 dims 512 rfl rfl).symm]
  refine Finset.sum_congr rfl fun k _ => ?_
  have hk := ValueIdx.contrEquiv1_symm_val dims 512 rfl rfl k
  have el : dims.lhsIdx (ix2 y0 y1) ((ValueIdx.contrEquiv1 dims 512 rfl rfl).symm k) = ix2 y0 k :=
    funext fun a => Fin.ext (by
      match a with
      | ⟨0, _⟩ => exact lhs_row _ _
      | ⟨1, _⟩ => exact (lhs_col _ _).trans hk)
  have er : dims.rhsIdx (ix2 y0 y1) ((ValueIdx.contrEquiv1 dims 512 rfl rfl).symm k) = ix2 k y1 :=
    funext fun a => Fin.ext (by
      match a with
      | ⟨0, _⟩ => exact (rhs_row _ _).trans hk
      | ⟨1, _⟩ => exact rhs_col _ _)
  rw [el, er]

/-- The body's stored value at element `(y0, y1)` of the block. -/
theorem payload_at (t : Vec Ideal S4000x512 .f32) (w : Vec Ideal S512x64 .f32) (b : Vec Ideal S1x64 .f32)
    (y0 : Fin 4000) (y1 : Fin 64) :
    k0_pay1 (F := Ideal) t w b (ix2 y0 y1)
      = max ((∑ q : Fin 512, t (ix2 y0 q) * w (ix2 q y1)) + b (ix2 (0 : Fin 1) y1)) 0 := by
  unfold k0_pay1
  show max ((matmul (F := Ideal) dims none
              (truncf .bf16 (shapeCast S4000x512 t shapeCasts_S4000x512_S4000x512 : FVec Ideal S4000x512 .f32) bitsLt_bf16_f32)
              (truncf .bf16 (shapeCast S512x64 w shapeCasts_S512x64_S512x64 : FVec Ideal S512x64 .f32) bitsLt_bf16_f32)
              (constant (F := Ideal) S4000x64 .f32 0x00000000#32) (ix2 y0 y1) : EReal)
            + (broadcastTo S4000x64 (shapeCast S1x64 b shapeCasts_S1x64_S1x64 : FVec Ideal S1x64 .f32)
                broadcasts_S1x64_S4000x64 (ix2 y0 y1) : EReal))
          (Ideal.ofBits .f32 0x00000000#32) = _
  rw [matmul_at, shapeCast_self, shapeCast_self, shapeCast_self,
    broadcastTo_1b_ab_apply b broadcasts_S1x64_S4000x64 y0 y1, Ideal.ofBits_zero_f32]
  rfl

end Cert.KernelIdeal.Payload

end
-- ==== Proof.KernelWhole.lean ====
/-
  The idealized kernel's result array, whole, as one function of the three arrays the region stages.

  Write T for the [100000, 512] array of the eight Chebyshev terms side by side, W for the [512, 64] matrix of the
  eight weight matrices one above the other, and B for the [1, 64] bias row, each as the region finds it. Grid point t
  (of 25) stages rows 4000·t … 4000·t+3999 of T together with all of W and B, and writes back rows 4000·t … of the
  result. By the body's arithmetic at one element, element (y0, y1) of what point t writes back is
      max (Σ_{q < 512} T (4000·t + y0, q) · W (q, y1) + B (0, y1)) 0,
  which is element (4000·t + y0, y1) of
      combine T W B (r, j) = max (Σ_{q < 512} T (r, q) · W (q, j) + B (0, j)) 0.
  Row r lies in the block of point r / 4000, so the 25 blocks cover the array and the result ends holding
  `combine T W B` everywhere.
-/
import proofs.«148577_j7748121002165_1_alg».proof.Proof.KernelIdealFrame
import proofs.«148577_j7748121002165_1_alg».proof.Proof.KernelPayload

set_option maxRecDepth 16384

noncomputable section

open scoped BigOperators

namespace Cert.KernelIdeal.Whole

open Cert.KernelIdeal Cert.KernelIdeal.Gen Cert.KernelIdeal.Launched Cert.KernelIdeal.Payload
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- One element of the combination. -/
def combineAt (T : S100000x512.Idx → EReal) (W : S512x64.Idx → EReal) (B : S1x64.Idx → EReal)
    (r : Fin 100000) (j : Fin 64) : EReal :=
  max ((∑ q : Fin 512, T (ix2 r q) * W (ix2 q j)) + B (ix2 (0 : Fin 1) j)) 0

/-- The combination, as an array. -/
def combine (T : S100000x512.Idx → EReal) (W : S512x64.Idx → EReal) (B : S1x64.Idx → EReal) :
    S100000x64.Idx → EReal := fun i => combineAt T W B (i 0) (i 1)

theorem zeros : (![0, 0] : Fin 2 → Nat) = fun _ => 0 := funext fun a => by fin_cases a <;> rfl

/-- The four index maps over the grid: the terms' block moves with the result's down the rows, at column block 0; the
    matrix and the bias row are always block (0, 0); the result's row block is at most 24. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 24 :=
  (by decide +kernel : ∀ t : Fin grid0.N, _)

/-- Every row block of the result is some point's. -/
theorem index_onto : ∀ q0 : Fin 25, ∃ t : Fin cfg0.N, win0_3.index t = ![q0.val, 0] :=
  (by decide +kernel : ∀ q0 : Fin 25, ∃ t : Fin grid0.N, win0_3.index t = ![q0.val, 0])

/-! ## The input blocks, read where the result's block says -/

theorem read_terms (c : Dev nD) (t : Fin cfg0.N) (y0 : Fin 4000) (q : Fin 512) (r : Fin 100000)
    (hr : r.val = win0_3.index t (0 : Fin 2) * 4000 + y0.val) :
    blockAt m c 0 t (ix2 y0 q) = entry m c main_v139 (ix2 r q) := by
  show entry m c main_v139 (((cfg0.win 0).blk t).view.emb (ix2 y0 q)) = entry m c main_v139 (ix2 r q)
  obtain ⟨e0, e1, e2, e3, e4, e5, e6, e7⟩ := index_facts t
  have e : ((cfg0.win 0).blk t).view.emb (ix2 y0 q) = ix2 r q := by
    funext a; apply Fin.ext
    match a with
    | ⟨0, _⟩ => show win0_0.index t (0 : Fin 2) * 4000 + 1 * y0.val = r.val; omega
    | ⟨1, _⟩ => show win0_0.index t (1 : Fin 2) * 512 + 1 * q.val = q.val; omega
  rw [e]

theorem read_matrix (c : Dev nD) (t : Fin cfg0.N) (q : Fin 512) (y1 j : Fin 64) (hj : j.val = y1.val) :
    blockAt m c 1 t (ix2 q y1) = entry m c main_v140 (ix2 q j) := by
  show entry m c main_v140 (((cfg0.win 1).blk t).view.emb (ix2 q y1)) = entry m c main_v140 (ix2 q j)
  obtain ⟨e0, e1, e2, e3, e4, e5, e6, e7⟩ := index_facts t
  have e : ((cfg0.win 1).blk t).view.emb (ix2 q y1) = ix2 q j := by
    funext a; apply Fin.ext
    match a with
    | ⟨0, _⟩ => show win0_1.index t (0 : Fin 2) * 512 + 1 * q.val = q.val; omega
    | ⟨1, _⟩ => show win0_1.index t (1 : Fin 2) * 64 + 1 * y1.val = j.val; omega
  rw [e]

theorem read_bias (c : Dev nD) (t : Fin cfg0.N) (y1 j : Fin 64) (hj : j.val = y1.val) :
    blockAt m c 2 t (ix2 (0 : Fin 1) y1) = entry m c main_v141 (ix2 (0 : Fin 1) j) := by
  show entry m c main_v141 (((cfg0.win 2).blk t).view.emb (ix2 (0 : Fin 1) y1)) = entry m c main_v141 (ix2 (0 : Fin 1) j)
  obtain ⟨e0, e1, e2, e3, e4, e5, e6, e7⟩ := index_facts t
  have e : ((cfg0.win 2).blk t).view.emb (ix2 (0 : Fin 1) y1) = ix2 (0 : Fin 1) j := by
    funext a; apply Fin.ext
    match a with
    | ⟨0, _⟩ => show win0_2.index t (0 : Fin 2) * 1 + 1 * 0 = 0; omega
    | ⟨1, _⟩ => show win0_2.index t (1 : Fin 2) * 64 + 1 * y1.val = j.val; omega
  rw [e]

/-- Element (y0, y1) of the body's stored block at point t is element (r, j) of the combination, r the row
    4000·(t's row block) + y0 and j the column y1. -/
theorem stored_at (c : Dev nD) (t : Fin cfg0.N) (y0 : Fin 4000) (y1 : Fin 64) (r : Fin 100000) (j : Fin 64)
    (hr : r.val = win0_3.index t (0 : Fin 2) * 4000 + y0.val) (hj : j.val = y1.val) :
    k0_pay1 (F := Ideal) (blockAt m c 0 t) (blockAt m c 1 t) (blockAt m c 2 t) (ix2 y0 y1)
      = combineAt (entry m c main_v139) (entry m c main_v140) (entry m c main_v141) r j := by
  refine (payload_at _ _ _ y0 y1).trans ?_
  unfold combineAt
  rw [read_bias m c t y1 j hj]
  refine congrArg (fun s => max (s + entry m c main_v141 (ix2 (0 : Fin 1) j)) 0) ?_
  refine Finset.sum_congr rfl fun q _ => ?_
  rw [read_terms m c t y0 q r hr, read_matrix m c t q y1 j hj]

/-! ## What a point writes back, and the whole array -/

theorem flushed_eq (c : Dev nD) (t : Fin cfg0.N) :
    (pdat m 0 c).flushed 3 t = ((cfg0.win 3).blk t).view.read (Elt Ideal)
      (combine (entry m c main_v139) (entry m c main_v140) (entry m c main_v141)) := by
  show (cfg0.win 3).cut (grid0.coords t) ((pdat m 0 c).after 3 t) = _
  rw [after3]
  unfold stored
  rw [View.canon_unit_zero zeros]
  simp only [View.ld_unit_zero (S := S4000x512) zeros, View.ld_unit_zero (S := S512x64) zeros,
    View.ld_unit_zero (S := S1x64) zeros]
  obtain ⟨e0, e1, e2, e3, e4, e5, e6, e7⟩ := index_facts t
  funext y
  obtain ⟨y0, y1, rfl⟩ : ∃ (y0 : Fin 4000) (y1 : Fin 64), y = ix2 y0 y1 :=
    ⟨y 0, y 1, eq_ix2 (n0 := 4000) (n1 := 64) y⟩
  show k0_pay1 (F := Ideal) (blockAt m c 0 t) (blockAt m c 1 t) (blockAt m c 2 t) (ix2 y0 y1)
    = combineAt (entry m c main_v139) (entry m c main_v140) (entry m c main_v141)
        ((((cfg0.win 3).blk t).view.emb (ix2 y0 y1)) 0) ((((cfg0.win 3).blk t).view.emb (ix2 y0 y1)) 1)
  exact stored_at m c t y0 y1 _ _
    (by show win0_3.index t (0 : Fin 2) * 4000 + 1 * y0.val = win0_3.index t (0 : Fin 2) * 4000 + y0.val; omega)
    (by show win0_3.index t (1 : Fin 2) * 64 + 1 * y1.val = y1.val; omega)

/-- An index of the result is in point t's block iff each coordinate is in the block's range on its axis. -/
theorem mem_block (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v142).slice (win0_3.rect t)).set ↔ _
  rw [View.set_slice_whole, Rect.mem_set_unit]
  exact Iff.rfl

/-- Row r is in the block of point r / 4000: the 25 blocks cover the result. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := index_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 64 ≤ (i 1).val ∧ (i 1).val < win0_3.index t (1 : Fin 2) * 64 + 64
    omega

/-- The result array after the run. -/
theorem result_eq (c : Dev nD) :
    (pdat m 0 c).arrAt 3 cfg0.N = combine (entry m c main_v139) (entry m c main_v140) (entry m c main_v141) :=
  (pdat m 0 c).arrAt_eq_of_cover 3 _ (fun t _ => flushed_eq m c t) covered

/-- The run of @main with the result named: the combination of the three staged arrays; the arguments unchanged. -/
theorem run : θ_run defs (onTc (τ := τ) (main (F := Ideal))) ⟨m, fun _ => 0, ρ⟩ fun r => ∀ c : Dev nD,
      r.2.mem ((c.tc : Thread nD τ).loc main_v142)
        = combine (entry m c main_v139) (entry m c main_v140) (entry m c main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 3).trans (result_eq m c),
     ((h c).2 main_arg0 (Pipeline.mem_restRefs_of main_arg0 (by decide) (by decide))).trans (entry_x m c),
     ((h c).2 main_arg1 (Pipeline.mem_restRefs_of main_arg1 (by decide) (by decide))).trans (entry_edges m c),
     ((h c).2 main_arg2 (Pipeline.mem_restRefs_of main_arg2 (by decide) (by decide))).trans (entry_weight m c),
     ((h c).2 main_arg3 (Pipeline.mem_restRefs_of main_arg3 (by decide) (by decide))).trans (entry_bias m c)⟩)
    (run_main m ρ)

end Cert.KernelIdeal.Whole

end
-- ==== Proof.KernelEntry.lean ====
/-
  The eight Chebyshev terms as the region finds them, matched with the reference's stages one step at a time.

  The host operations before the region fall into stretches: first the two index rows, the degree count, the edge
  normalisation and the first propagation (giving L̂x); then six stretches of twenty operations, each ONE Chebyshev
  step  T_k = 2·L̂ T_{k-1} − T_{k-2},  L̂ h = scatter-add to the destination rows of (norm · the gathered source rows
  of h);  last the concatenation and the two re-layings. `cheb` is that one step as a function of the norm, the two
  index rows and the two previous terms. Each stretch is run from ARBITRARY contents and leaves its term at `cheb`
  of what it read, touching no buffer a later stretch reads; each stage of the reference is the same `cheb` of its
  two previous stages. So by induction over the stretches every term's buffer holds the reference's stage for it, and
  the graph propagation itself is never opened beyond one step.
-/
import proofs.«148577_j7748121002165_1_alg».proof.Proof.KernelIdealFrame
import proofs.«148577_j7748121002165_1_alg».proof.Proof.RefReadP

set_option maxRecDepth 16384

noncomputable section

namespace Cert.KernelIdeal.Entry

open Cert.KernelIdeal Cert.KernelIdeal.Gen Cert.KernelIdeal.Launched
open Idealize.ShloMosaic Idealize.ShloMosaic.TcCoe Idealize.ShloMosaic.StableHlo
open Idealize.SL Idealize.SL.Sem

/-- Operations run one stretch after another. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The `n` operations of the long stretch from position `a`. -/
abbrev seg (a n : Nat) : List (HloOp τ sig (Elt Ideal)) := ((hostOps0_2 : List (HloOp τ sig (Elt Ideal))).drop a).take n

/-- The long stretch: the norm, the first propagation, six Chebyshev steps, the concatenation and re-layings. -/
theorem stretch_split : (hostOps0_2 : List (HloOp τ sig (Elt Ideal)))
    = seg 0 20 ++ (seg 20 16 ++ (seg 36 20 ++ (seg 56 20 ++ (seg 76 20 ++ (seg 96 20 ++ (seg 116 20 ++ (seg 136 20 ++ seg 156 3))))))) := by
  rfl

/-- L̂ h: the source rows of `h` gathered (negative indices wrapped), scaled by the edge norm, scatter-added to the
    destination rows of a zero array. -/
def lap (norm : (⟨S1000000, .f32⟩ : BufTy).Contents (Elt Ideal)) (src dst : (⟨S1000000, .i32⟩ : BufTy).Contents (Elt Ideal))
    (h : (⟨S100000x64, .f32⟩ : BufTy).Contents (Elt Ideal)) : (⟨S100000x64, .f32⟩ : BufTy).Contents (Elt Ideal) :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (mulf (broadcastInDim S1000000x64 ![0, 1] bcast_S1000000x1_S1000000x64_0_1
            (broadcastInDim S1000000x1 ![0] bcast_S1000000_S1000000x1_0 norm))
      (Host.gather gather_S100000x64_S1000000x1_S1000000x64_1_0_n_n_0_1_164 h
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))

/-- One Chebyshev step: 2·L̂ h − hprev. -/
def cheb (norm : (⟨S1000000, .f32⟩ : BufTy).Contents (Elt Ideal)) (src dst : (⟨S1000000, .i32⟩ : BufTy).Contents (Elt Ideal))
    (h hprev : (⟨S100000x64, .f32⟩ : BufTy).Contents (Elt Ideal)) : (⟨S100000x64, .f32⟩ : BufTy).Contents (Elt Ideal) :=
  subf (mulf (broadcastInDim S100000x64 ![] bcast_S_S100000x64 (constant (F := Ideal) S_ .f32 0x40000000#32))
    (lap norm src dst h)) hprev

/-- A buffer none of a stretch's operations writes keeps its contents: each operation writes its one result buffer,
    and the buffer in question is none of them. -/
macro "untouched" : tactic =>
  `(tactic| (
      refine after_of_forall_not_mem _ _ (List.forall_iff_forall_mem.mp ?_)
      simp only [seg, hostOps0, hostOps0_1, hostOps0_2, List.drop_succ_cons, List.drop_zero, List.take_succ_cons,
        List.take_zero, List.cons_append, List.nil_append, List.Forall, StableHlo.nullary_writes,
        StableHlo.unary_writes, StableHlo.binary_writes, StableHlo.ternary_writes, StableHlo.quaternary_writes,
        StableHlo.reshape_writes, StableHlo.nary_writes, Finset.mem_singleton]
      repeat' apply And.intro
      all_goals exact StableHlo.devRef_ne_of_ne (by decide)))

/-! ## Each stretch, from arbitrary contents -/

set_option maxHeartbeats 4000000 in
/-- Segment 2: from any contents, term 2's buffer ends at one Chebyshev step of the norm, the indices and the two terms before. -/
theorem step2 (W : Valuation τ sig (Elt Ideal)) :
    after (seg 36 20) W (Proc.devRef .tc main_v58)
      = cheb (W (Proc.devRef .tc main_v29)) (W (Proc.devRef .tc main_v1)) (W (Proc.devRef .tc main_v3))
          (W (Proc.devRef .tc main_v42)) (W (Proc.devRef .tc main_arg0)) := by
  simp only [seg, hostOps0_2, List.drop_succ_cons, List.drop_zero, List.take_succ_cons, List.take_zero]
  after_results_simp
  first | rfl | fail "step 2: the two sides differ"

set_option maxHeartbeats 4000000 in
/-- Segment 3: from any contents, term 3's buffer ends at one Chebyshev step of the norm, the indices and the two terms before. -/
theorem step3 (W : Valuation τ sig (Elt Ideal)) :
    after (seg 56 20) W (Proc.devRef .tc main_v74)
      = cheb (W (Proc.devRef .tc main_v29)) (W (Proc.devRef .tc main_v1)) (W (Proc.devRef .tc main_v3))
          (W (Proc.devRef .tc main_v58)) (W (Proc.devRef .tc main_v42)) := by
  simp only [seg, hostOps0_2, List.drop_succ_cons, List.drop_zero, List.take_succ_cons, List.take_zero]
  after_results_simp
  first | rfl | fail "step 3: the two sides differ"

set_option maxHeartbeats 4000000 in
/-- Segment 4: from any contents, term 4's buffer ends at one Chebyshev step of the norm, the indices and the two terms before. -/
theorem step4 (W : Valuation τ sig (Elt Ideal)) :
    after (seg 76 20) W (Proc.devRef .tc main_v90)
      = cheb (W (Proc.devRef .tc main_v29)) (W (Proc.devRef .tc main_v1)) (W (Proc.devRef .tc main_v3))
          (W (Proc.devRef .tc main_v74)) (W (Proc.devRef .tc main_v58)) := by
  simp only [seg, hostOps0_2, List.drop_succ_cons, List.drop_zero, List.take_succ_cons, List.take_zero]
  after_results_simp
  first | rfl | fail "step 4: the two sides differ"

set_option maxHeartbeats 4000000 in
/-- Segment 5: from any contents, term 5's buffer ends at one Chebyshev step of the norm, the indices and the two terms before. -/
theorem step5 (W : Valuation τ sig (Elt Ideal)) :
    after (seg 96 20) W (Proc.devRef .tc main_v106)
      = cheb (W (Proc.devRef .tc main_v29)) (W (Proc.devRef .tc main_v1)) (W (Proc.devRef .tc main_v3))
          (W (Proc.devRef .tc main_v90)) (W (Proc.devRef .tc main_v74)) := by
  simp only [seg, hostOps0_2, List.drop_succ_cons, List.drop_zero, List.take_succ_cons, List.take_zero]
  after_results_simp
  first | rfl | fail "step 5: the two sides differ"

set_option maxHeartbeats 4000000 in
/-- Segment 6: from any contents, term 6's buffer ends at one Chebyshev step of the norm, the indices and the two terms before. -/
theorem step6 (W : Valuation τ sig (Elt Ideal)) :
    after (seg 116 20) W (Proc.devRef .tc main_v122)
      = cheb (W (Proc.devRef .tc main_v29)) (W (Proc.devRef .tc main_v1)) (W (Proc.devRef .tc main_v3))
          (W (Proc.devRef .tc main_v106)) (W (Proc.devRef .tc main_v90)) := by
  simp only [seg, hostOps0_2, List.drop_succ_cons, List.drop_zero, List.take_succ_cons, List.take_zero]
  after_results_simp
  first | rfl | fail "step 6: the two sides differ"

set_option maxHeartbeats 4000000 in
/-- Segment 7: from any contents, term 7's buffer ends at one Chebyshev step of the norm, the indices and the two terms before. -/
theorem step7 (W : Valuation τ sig (Elt Ideal)) :
    after (seg 136 20) W (Proc.devRef .tc main_v138)
      = cheb (W (Proc.devRef .tc main_v29)) (W (Proc.devRef .tc main_v1)) (W (Proc.devRef .tc main_v3))
          (W (Proc.devRef .tc main_v122)) (W (Proc.devRef .tc main_v106)) := by
  simp only [seg, hostOps0_2, List.drop_succ_cons, List.drop_zero, List.take_succ_cons, List.take_zero]
  after_results_simp
  first | rfl | fail "step 7: the two sides differ"

set_option maxHeartbeats 4000000 in
/-- The outlined `where`: from any contents, its result is the selection of its two array operands and the
    broadcast scalar. -/
theorem where_step (W : Valuation τ sig (Elt Ideal)) :
    after hostOps0_1 W (Proc.devRef .tc main_v13)
      = select (W (Proc.devRef .tc main_v9)) (W (Proc.devRef .tc main_v12))
          (broadcastInDim S100000 ![] bcast_S_S100000 (id (W (Proc.devRef .tc main_cst_3)))) := by
  simp only [hostOps0_1]
  after_results_simp
  first | rfl | fail "where_step: the two sides differ"

set_option maxHeartbeats 4000000 in
/-- The first propagation: from any contents, L̂ of x. -/
theorem step1 (W : Valuation τ sig (Elt Ideal)) :
    after (seg 20 16) W (Proc.devRef .tc main_v42)
      = lap (W (Proc.devRef .tc main_v29)) (W (Proc.devRef .tc main_v1)) (W (Proc.devRef .tc main_v3))
          (W (Proc.devRef .tc main_arg0)) := by
  simp only [seg, hostOps0_2, List.drop_succ_cons, List.drop_zero, List.take_succ_cons, List.take_zero]
  after_results_simp
  first | rfl | fail "step 1: the two sides differ"

set_option maxHeartbeats 4000000 in
/-- The last stretch: the terms' buffers side by side. -/
theorem concat_last (W : Valuation τ sig (Elt Ideal)) :
    after (seg 156 3) W (Proc.devRef .tc main_v139)
      = concatenate S100000x512 1
          [⟨S100000x64, W (Proc.devRef .tc main_arg0)⟩, ⟨S100000x64, W (Proc.devRef .tc main_v42)⟩,
           ⟨S100000x64, W (Proc.devRef .tc main_v58)⟩, ⟨S100000x64, W (Proc.devRef .tc main_v74)⟩,
           ⟨S100000x64, W (Proc.devRef .tc main_v90)⟩, ⟨S100000x64, W (Proc.devRef .tc main_v106)⟩,
           ⟨S100000x64, W (Proc.devRef .tc main_v122)⟩, ⟨S100000x64, W (Proc.devRef .tc main_v138)⟩]
          concatenates_S100000x64_S100000x64_S100000x64_S100000x64_S100000x64_S100000x64_S100000x64_S100000x64_S100000x512_d1 := by
  simp only [seg, hostOps0_2, List.drop_succ_cons, List.drop_zero, List.take_succ_cons, List.take_zero]
  after_results_simp
  first | rfl | fail "concat_last: the two sides differ"

/-! ## The reference's stages, one step each -/

section Stages

variable (x0 : (⟨Cert.ReferenceIdeal.S100000x64, .f32⟩ : BufTy).Contents (Elt Ideal))
  (x1 : (⟨Cert.ReferenceIdeal.S2x1000000, .i32⟩ : BufTy).Contents (Elt Ideal))

local notation "NORM" => Cert.ReferenceIdeal.ReadP.val_main_v33 (F := Ideal) x1
local notation "SRC" => Cert.ReferenceIdeal.ReadP.val_main_v1 (F := Ideal) x1
local notation "DST" => Cert.ReferenceIdeal.ReadP.val_main_v3 (F := Ideal) x1

/-- The reference's stage for term 2 is one Chebyshev step of its stages for the two terms before. -/
theorem ref2 : (Cert.ReferenceIdeal.ReadP.val_main_v69 (F := Ideal) x0 x1) = cheb NORM SRC DST (Cert.ReferenceIdeal.ReadP.val_main_v49 (F := Ideal) x0 x1) x0 := by
  first | rfl | fail "reference stage 2: the two sides differ"

/-- The reference's stage for term 3 is one Chebyshev step of its stages for the two terms before. -/
theorem ref3 : (Cert.ReferenceIdeal.ReadP.val_main_v89 (F := Ideal) x0 x1) = cheb NORM SRC DST (Cert.ReferenceIdeal.ReadP.val_main_v69 (F := Ideal) x0 x1) (Cert.ReferenceIdeal.ReadP.val_main_v49 (F := Ideal) x0 x1) := by
  first | rfl | fail "reference stage 3: the two sides differ"

/-- The reference's stage for term 4 is one Chebyshev step of its stages for the two terms before. -/
theorem ref4 : (Cert.ReferenceIdeal.ReadP.val_main_v109 (F := Ideal) x0 x1) = cheb NORM SRC DST (Cert.ReferenceIdeal.ReadP.val_main_v89 (F := Ideal) x0 x1) (Cert.ReferenceIdeal.ReadP.val_main_v69 (F := Ideal) x0 x1) := by
  first | rfl | fail "reference stage 4: the two sides differ"

/-- The reference's stage for term 5 is one Chebyshev step of its stages for the two terms before. -/
theorem ref5 : (Cert.ReferenceIdeal.ReadP.val_main_v129 (F := Ideal) x0 x1) = cheb NORM SRC DST (Cert.ReferenceIdeal.ReadP.val_main_v109 (F := Ideal) x0 x1) (Cert.ReferenceIdeal.ReadP.val_main_v89 (F := Ideal) x0 x1) := by
  first | rfl | fail "reference stage 5: the two sides differ"

/-- The reference's stage for term 6 is one Chebyshev step of its stages for the two terms before. -/
theorem ref6 : (Cert.ReferenceIdeal.ReadP.val_main_v149 (F := Ideal) x0 x1) = cheb NORM SRC DST (Cert.ReferenceIdeal.ReadP.val_main_v129 (F := Ideal) x0 x1) (Cert.ReferenceIdeal.ReadP.val_main_v109 (F := Ideal) x0 x1) := by
  first | rfl | fail "reference stage 6: the two sides differ"

/-- The reference's stage for term 7 is one Chebyshev step of its stages for the two terms before. -/
theorem ref7 : (Cert.ReferenceIdeal.ReadP.val_main_v169 (F := Ideal) x0 x1) = cheb NORM SRC DST (Cert.ReferenceIdeal.ReadP.val_main_v149 (F := Ideal) x0 x1) (Cert.ReferenceIdeal.ReadP.val_main_v129 (F := Ideal) x0 x1) := by
  first | rfl | fail "reference stage 7: the two sides differ"

/-- The reference's stage for L̂x is the propagation of x. -/
theorem ref1 : (Cert.ReferenceIdeal.ReadP.val_main_v49 (F := Ideal) x0 x1) = lap NORM SRC DST x0 := by
  first | rfl | fail "reference stage 1: the two sides differ"

/-- The reference's `where` stage is the selection of its comparison and reciprocal-root stages and a broadcast zero. -/
theorem ref_where :
    select (Cert.ReferenceIdeal.ReadP.val_main_v13 (F := Ideal) x1) (Cert.ReferenceIdeal.ReadP.val_main_v16 (F := Ideal) x1)
        (broadcastInDim S100000 ![] bcast_S_S100000 (id (constant (F := Ideal) S_ .f32 0x00000000#32)))
      = Cert.ReferenceIdeal.ReadP.val_main_v17 (F := Ideal) x1 := by
  first | rfl | fail "reference where stage: the two sides differ"

set_option maxHeartbeats 4000000 in
/-- The norm stretch: from contents holding the reference's `where` stage and index rows, the edge norm's buffer ends
    at the reference's norm stage. -/
theorem norm_step (W : Valuation τ sig (Elt Ideal))
    (hw : W (Proc.devRef .tc main_v13) = Cert.ReferenceIdeal.ReadP.val_main_v17 (F := Ideal) x1)
    (hs : W (Proc.devRef .tc main_v1) = SRC) (hd : W (Proc.devRef .tc main_v3) = DST) :
    after (seg 0 20) W (Proc.devRef .tc main_v29) = NORM := by
  simp only [seg, hostOps0_2, List.drop_succ_cons, List.drop_zero, List.take_succ_cons, List.take_zero]
  after_results_simp
  rw [hw, hs, hd]
  first | rfl | fail "norm stretch: the two sides differ"

/-! ## The invariant carried through the stretches -/

/-- After the stretches up to the `k`-th: x, the two index rows and the norm where every step reads them, and each
    of the first `k` terms' buffers at the reference's stage for that term. -/
structure Upto (W : Valuation τ sig (Elt Ideal)) (k : Nat) : Prop where
  x : W (Proc.devRef .tc main_arg0) = x0
  src : W (Proc.devRef .tc main_v1) = SRC
  dst : W (Proc.devRef .tc main_v3) = DST
  norm : W (Proc.devRef .tc main_v29) = NORM
  t1 : 1 ≤ k → W (Proc.devRef .tc main_v42) = (Cert.ReferenceIdeal.ReadP.val_main_v49 (F := Ideal) x0 x1)
  t2 : 2 ≤ k → W (Proc.devRef .tc main_v58) = (Cert.ReferenceIdeal.ReadP.val_main_v69 (F := Ideal) x0 x1)
  t3 : 3 ≤ k → W (Proc.devRef .tc main_v74) = (Cert.ReferenceIdeal.ReadP.val_main_v89 (F := Ideal) x0 x1)
  t4 : 4 ≤ k → W (Proc.devRef .tc main_v90) = (Cert.ReferenceIdeal.ReadP.val_main_v109 (F := Ideal) x0 x1)
  t5 : 5 ≤ k → W (Proc.devRef .tc main_v106) = (Cert.ReferenceIdeal.ReadP.val_main_v129 (F := Ideal) x0 x1)
  t6 : 6 ≤ k → W (Proc.devRef .tc main_v122) = (Cert.ReferenceIdeal.ReadP.val_main_v149 (F := Ideal) x0 x1)
  t7 : 7 ≤ k → W (Proc.devRef .tc main_v138) = (Cert.ReferenceIdeal.ReadP.val_main_v169 (F := Ideal) x0 x1)

set_option maxHeartbeats 4000000 in
/-- Segment 2 computes term 2 and touches nothing the later segments read. -/
theorem upto2 (W : Valuation τ sig (Elt Ideal)) (h : Upto x0 x1 W 1) : Upto x0 x1 (after (seg 36 20) W) 2 where
    x := (by untouched : after (seg 36 20) W _ = W _).trans h.x
    src := (by untouched : after (seg 36 20) W _ = W _).trans h.src
    dst := (by untouched : after (seg 36 20) W _ = W _).trans h.dst
    norm := (by untouched : after (seg 36 20) W _ = W _).trans h.norm
    t1 := fun _ => (by untouched : after (seg 36 20) W _ = W _).trans (h.t1 (by omega))
    t2 := fun _ => by
      rw [step2, h.norm, h.src, h.dst, h.t1 (by omega), h.x]
      exact (ref2 x0 x1).symm
    t3 := fun hk => absurd hk (by omega)
    t4 := fun hk => absurd hk (by omega)
    t5 := fun hk => absurd hk (by omega)
    t6 := fun hk => absurd hk (by omega)
    t7 := fun hk => absurd hk (by omega)

set_option maxHeartbeats 4000000 in
/-- Segment 3 computes term 3 and touches nothing the later segments read. -/
theorem upto3 (W : Valuation τ sig (Elt Ideal)) (h : Upto x0 x1 W 2) : Upto x0 x1 (after (seg 56 20) W) 3 where
    x := (by untouched : after (seg 56 20) W _ = W _).trans h.x
    src := (by untouched : after (seg 56 20) W _ = W _).trans h.src
    dst := (by untouched : after (seg 56 20) W _ = W _).trans h.dst
    norm := (by untouched : after (seg 56 20) W _ = W _).trans h.norm
    t1 := fun _ => (by untouched : after (seg 56 20) W _ = W _).trans (h.t1 (by omega))
    t2 := fun _ => (by untouched : after (seg 56 20) W _ = W _).trans (h.t2 (by omega))
    t3 := fun _ => by
      rw [step3, h.norm, h.src, h.dst, h.t2 (by omega), h.t1 (by omega)]
      exact (ref3 x0 x1).symm
    t4 := fun hk => absurd hk (by omega)
    t5 := fun hk => absurd hk (by omega)
    t6 := fun hk => absurd hk (by omega)
    t7 := fun hk => absurd hk (by omega)

set_option maxHeartbeats 4000000 in
/-- Segment 4 computes term 4 and touches nothing the later segments read. -/
theorem upto4 (W : Valuation τ sig (Elt Ideal)) (h : Upto x0 x1 W 3) : Upto x0 x1 (after (seg 76 20) W) 4 where
    x := (by untouched : after (seg 76 20) W _ = W _).trans h.x
    src := (by untouched : after (seg 76 20) W _ = W _).trans h.src
    dst := (by untouched : after (seg 76 20) W _ = W _).trans h.dst
    norm := (by untouched : after (seg 76 20) W _ = W _).trans h.norm
    t1 := fun _ => (by untouched : after (seg 76 20) W _ = W _).trans (h.t1 (by omega))
    t2 := fun _ => (by untouched : after (seg 76 20) W _ = W _).trans (h.t2 (by omega))
    t3 := fun _ => (by untouched : after (seg 76 20) W _ = W _).trans (h.t3 (by omega))
    t4 := fun _ => by
      rw [step4, h.norm, h.src, h.dst, h.t3 (by omega), h.t2 (by omega)]
      exact (ref4 x0 x1).symm
    t5 := fun hk => absurd hk (by omega)
    t6 := fun hk => absurd hk (by omega)
    t7 := fun hk => absurd hk (by omega)

set_option maxHeartbeats 4000000 in
/-- Segment 5 computes term 5 and touches nothing the later segments read. -/
theorem upto5 (W : Valuation τ sig (Elt Ideal)) (h : Upto x0 x1 W 4) : Upto x0 x1 (after (seg 96 20) W) 5 where
    x := (by untouched : after (seg 96 20) W _ = W _).trans h.x
    src := (by untouched : after (seg 96 20) W _ = W _).trans h.src
    dst := (by untouched : after (seg 96 20) W _ = W _).trans h.dst
    norm := (by untouched : after (seg 96 20) W _ = W _).trans h.norm
    t1 := fun _ => (by untouched : after (seg 96 20) W _ = W _).trans (h.t1 (by omega))
    t2 := fun _ => (by untouched : after (seg 96 20) W _ = W _).trans (h.t2 (by omega))
    t3 := fun _ => (by untouched : after (seg 96 20) W _ = W _).trans (h.t3 (by omega))
    t4 := fun _ => (by untouched : after (seg 96 20) W _ = W _).trans (h.t4 (by omega))
    t5 := fun _ => by
      rw [step5, h.norm, h.src, h.dst, h.t4 (by omega), h.t3 (by omega)]
      exact (ref5 x0 x1).symm
    t6 := fun hk => absurd hk (by omega)
    t7 := fun hk => absurd hk (by omega)

set_option maxHeartbeats 4000000 in
/-- Segment 6 computes term 6 and touches nothing the later segments read. -/
theorem upto6 (W : Valuation τ sig (Elt Ideal)) (h : Upto x0 x1 W 5) : Upto x0 x1 (after (seg 116 20) W) 6 where
    x := (by untouched : after (seg 116 20) W _ = W _).trans h.x
    src := (by untouched : after (seg 116 20) W _ = W _).trans h.src
    dst := (by untouched : after (seg 116 20) W _ = W _).trans h.dst
    norm := (by untouched : after (seg 116 20) W _ = W _).trans h.norm
    t1 := fun _ => (by untouched : after (seg 116 20) W _ = W _).trans (h.t1 (by omega))
    t2 := fun _ => (by untouched : after (seg 116 20) W _ = W _).trans (h.t2 (by omega))
    t3 := fun _ => (by untouched : after (seg 116 20) W _ = W _).trans (h.t3 (by omega))
    t4 := fun _ => (by untouched : after (seg 116 20) W _ = W _).trans (h.t4 (by omega))
    t5 := fun _ => (by untouched : after (seg 116 20) W _ = W _).trans (h.t5 (by omega))
    t6 := fun _ => by
      rw [step6, h.norm, h.src, h.dst, h.t5 (by omega), h.t4 (by omega)]
      exact (ref6 x0 x1).symm
    t7 := fun hk => absurd hk (by omega)

set_option maxHeartbeats 4000000 in
/-- Segment 7 computes term 7 and touches nothing the later segments read. -/
theorem upto7 (W : Valuation τ sig (Elt Ideal)) (h : Upto x0 x1 W 6) : Upto x0 x1 (after (seg 136 20) W) 7 where
    x := (by untouched : after (seg 136 20) W _ = W _).trans h.x
    src := (by untouched : after (seg 136 20) W _ = W _).trans h.src
    dst := (by untouched : after (seg 136 20) W _ = W _).trans h.dst
    norm := (by untouched : after (seg 136 20) W _ = W _).trans h.norm
    t1 := fun _ => (by untouched : after (seg 136 20) W _ = W _).trans (h.t1 (by omega))
    t2 := fun _ => (by untouched : after (seg 136 20) W _ = W _).trans (h.t2 (by omega))
    t3 := fun _ => (by untouched : after (seg 136 20) W _ = W _).trans (h.t3 (by omega))
    t4 := fun _ => (by untouched : after (seg 136 20) W _ = W _).trans (h.t4 (by omega))
    t5 := fun _ => (by untouched : after (seg 136 20) W _ = W _).trans (h.t5 (by omega))
    t6 := fun _ => (by untouched : after (seg 136 20) W _ = W _).trans (h.t6 (by omega))
    t7 := fun _ => by
      rw [step7, h.norm, h.src, h.dst, h.t6 (by omega), h.t5 (by omega)]
      exact (ref7 x0 x1).symm

end Stages

/-! ## From the launch memory -/

variable (m : (ℓ : Loc nD τ sig) → Buf (Elt Ideal) ℓ) (c : Dev nD)

/-- The contents after the first short stretch (the index rows, the degree count, its comparison and reciprocal root). -/
def atDegree : Valuation τ sig (Elt Ideal) := after hostOps0 (fun b => m (c, b))
/-- … after the outlined `where`, -/
def atWhere : Valuation τ sig (Elt Ideal) := after hostOps0_1 (atDegree m c)
/-- … after the norm stretch, -/
def atNorm : Valuation τ sig (Elt Ideal) := after (seg 0 20) (atWhere m c)
/-- … and after the first propagation. -/
def first : Valuation τ sig (Elt Ideal) := after (seg 20 16) (atNorm m c)

set_option maxHeartbeats 4000000 in
theorem degree_x : atDegree m c (Proc.devRef .tc main_arg0) = (m ((c.tc : Thread nD τ).loc main_arg0)) := by
  unfold atDegree
  untouched
set_option maxHeartbeats 4000000 in
theorem degree_src : atDegree m c (Proc.devRef .tc main_v1) = Cert.ReferenceIdeal.ReadP.val_main_v1 (F := Ideal) (m ((c.tc : Thread nD τ).loc main_arg1)) := by
  unfold atDegree
  simp only [hostOps0]
  after_results_simp
  first | rfl | fail "src differs"
set_option maxHeartbeats 4000000 in
theorem degree_dst : atDegree m c (Proc.devRef .tc main_v3) = Cert.ReferenceIdeal.ReadP.val_main_v3 (F := Ideal) (m ((c.tc : Thread nD τ).loc main_arg1)) := by
  unfold atDegree
  simp only [hostOps0]
  after_results_simp
  first | rfl | fail "dst differs"
set_option maxHeartbeats 4000000 in
theorem degree_cmp : atDegree m c (Proc.devRef .tc main_v9) = Cert.ReferenceIdeal.ReadP.val_main_v13 (F := Ideal) (m ((c.tc : Thread nD τ).loc main_arg1)) := by
  unfold atDegree
  simp only [hostOps0]
  after_results_simp
  first | rfl | fail "degree comparison differs"
set_option maxHeartbeats 4000000 in
theorem degree_rsqrt : atDegree m c (Proc.devRef .tc main_v12) = Cert.ReferenceIdeal.ReadP.val_main_v16 (F := Ideal) (m ((c.tc : Thread nD τ).loc main_arg1)) := by
  unfold atDegree
  simp only [hostOps0]
  after_results_simp
  first | rfl | fail "degree reciprocal root differs"
set_option maxHeartbeats 4000000 in
theorem degree_zero : atDegree m c (Proc.devRef .tc main_cst_3) = constant (F := Ideal) S_ .f32 0x00000000#32 := by
  unfold atDegree
  simp only [hostOps0]
  after_results_simp

theorem where_eq : atWhere m c (Proc.devRef .tc main_v13) = Cert.ReferenceIdeal.ReadP.val_main_v17 (F := Ideal) (m ((c.tc : Thread nD τ).loc main_arg1)) := by
  unfold atWhere
  rw [where_step, degree_cmp, degree_rsqrt, degree_zero]
  exact ref_where _

set_option maxHeartbeats 4000000 in
theorem where_x : atWhere m c (Proc.devRef .tc main_arg0) = (m ((c.tc : Thread nD τ).loc main_arg0)) :=
  (by untouched : after hostOps0_1 (atDegree m c) _ = atDegree m c _).trans (degree_x m c)
set_option maxHeartbeats 4000000 in
theorem where_src : atWhere m c (Proc.devRef .tc main_v1) = Cert.ReferenceIdeal.ReadP.val_main_v1 (F := Ideal) (m ((c.tc : Thread nD τ).loc main_arg1)) :=
  (by untouched : after hostOps0_1 (atDegree m c) _ = atDegree m c _).trans (degree_src m c)
set_option maxHeartbeats 4000000 in
theorem where_dst : atWhere m c (Proc.devRef .tc main_v3) = Cert.ReferenceIdeal.ReadP.val_main_v3 (F := Ideal) (m ((c.tc : Thread nD τ).loc main_arg1)) :=
  (by untouched : after hostOps0_1 (atDegree m c) _ = atDegree m c _).trans (degree_dst m c)

set_option maxHeartbeats 4000000 in
theorem norm_x : atNorm m c (Proc.devRef .tc main_arg0) = (m ((c.tc : Thread nD τ).loc main_arg0)) :=
  (by untouched : after (seg 0 20) (atWhere m c) _ = atWhere m c _).trans (where_x m c)
set_option maxHeartbeats 4000000 in
theorem norm_src : atNorm m c (Proc.devRef .tc main_v1) = Cert.ReferenceIdeal.ReadP.val_main_v1 (F := Ideal) (m ((c.tc : Thread nD τ).loc main_arg1)) :=
  (by untouched : after (seg 0 20) (atWhere m c) _ = atWhere m c _).trans (where_src m c)
set_option maxHeartbeats 4000000 in
theorem norm_dst : atNorm m c (Proc.devRef .tc main_v3) = Cert.ReferenceIdeal.ReadP.val_main_v3 (F := Ideal) (m ((c.tc : Thread nD τ).loc main_arg1)) :=
  (by untouched : after (seg 0 20) (atWhere m c) _ = atWhere m c _).trans (where_dst m c)
theorem norm_eq : atNorm m c (Proc.devRef .tc main_v29) = Cert.ReferenceIdeal.ReadP.val_main_v33 (F := Ideal) (m ((c.tc : Thread nD τ).loc main_arg1)) :=
  norm_step _ _ (where_eq m c) (where_src m c) (where_dst m c)

set_option maxHeartbeats 4000000 in
/-- The first stretches leave x as launched, the two index rows, the norm and L̂x at the reference's stages. -/
theorem upto1 : Upto (m ((c.tc : Thread nD τ).loc main_arg0)) (m ((c.tc : Thread nD τ).loc main_arg1)) (first m c) 1 where
  x := (by untouched : after (seg 20 16) (atNorm m c) _ = atNorm m c _).trans (norm_x m c)
  src := (by untouched : after (seg 20 16) (atNorm m c) _ = atNorm m c _).trans (norm_src m c)
  dst := (by untouched : after (seg 20 16) (atNorm m c) _ = atNorm m c _).trans (norm_dst m c)
  norm := (by untouched : after (seg 20 16) (atNorm m c) _ = atNorm m c _).trans (norm_eq m c)
  t1 := fun _ => by
    unfold first
    rw [step1, norm_eq, norm_src, norm_dst, norm_x]
    exact (ref1 _ _).symm
  t2 := fun hk => absurd hk (by omega)
  t3 := fun hk => absurd hk (by omega)
  t4 := fun hk => absurd hk (by omega)
  t5 := fun hk => absurd hk (by omega)
  t6 := fun hk => absurd hk (by omega)
  t7 := fun hk => absurd hk (by omega)

/-- The contents after all seven term stretches. -/
def seventh : Valuation τ sig (Elt Ideal) :=
  after (seg 136 20) (after (seg 116 20) (after (seg 96 20) (after (seg 76 20) (after (seg 56 20) (after (seg 36 20) (first m c))))))

theorem all_terms : Upto (m ((c.tc : Thread nD τ).loc main_arg0)) (m ((c.tc : Thread nD τ).loc main_arg1)) (seventh m c) 7 :=
  upto7 _ _ _ (upto6 _ _ _ (upto5 _ _ _ (upto4 _ _ _ (upto3 _ _ _ (upto2 _ _ _ (upto1 m c))))))

/-- The region-entry contents are the last stretch run from `seventh`. -/
theorem entry_eq (b : Ref sig .tc) : entry m c b = after (seg 156 3) (seventh m c) (Proc.devRef .tc b) := by
  show after (List.flatten [hostOps0, hostOps0_1, hostOps0_2]) (fun b => m (c, b)) _ = _
  simp only [List.flatten_cons, List.flatten_nil, List.append_nil]
  rw [after_append, after_append, stretch_split]
  simp only [after_append]
  rfl

/-! ## The three staged arrays -/

/-- The staged terms: x and the reference's seven stages for L̂x, …, side by side. -/
theorem terms_eq :
    (entry m c main_v139 : S100000x512.Idx → EReal)
      = concatenate S100000x512 1
          [⟨S100000x64, m ((c.tc : Thread nD τ).loc main_arg0)⟩,
           ⟨S100000x64, Cert.ReferenceIdeal.ReadP.val_main_v49 (F := Ideal) (m ((c.tc : Thread nD τ).loc main_arg0)) (m ((c.tc : Thread nD τ).loc main_arg1))⟩,
           ⟨S100000x64, Cert.ReferenceIdeal.ReadP.val_main_v69 (F := Ideal) (m ((c.tc : Thread nD τ).loc main_arg0)) (m ((c.tc : Thread nD τ).loc main_arg1))⟩,
           ⟨S100000x64, Cert.ReferenceIdeal.ReadP.val_main_v89 (F := Ideal) (m ((c.tc : Thread nD τ).loc main_arg0)) (m ((c.tc : Thread nD τ).loc main_arg1))⟩,
           ⟨S100000x64, Cert.ReferenceIdeal.ReadP.val_main_v109 (F := Ideal) (m ((c.tc : Thread nD τ).loc main_arg0)) (m ((c.tc : Thread nD τ).loc main_arg1))⟩,
           ⟨S100000x64, Cert.ReferenceIdeal.ReadP.val_main_v129 (F := Ideal) (m ((c.tc : Thread nD τ).loc main_arg0)) (m ((c.tc : Thread nD τ).loc main_arg1))⟩,
           ⟨S100000x64, Cert.ReferenceIdeal.ReadP.val_main_v149 (F := Ideal) (m ((c.tc : Thread nD τ).loc main_arg0)) (m ((c.tc : Thread nD τ).loc main_arg1))⟩,
           ⟨S100000x64, Cert.ReferenceIdeal.ReadP.val_main_v169 (F := Ideal) (m ((c.tc : Thread nD τ).loc main_arg0)) (m ((c.tc : Thread nD τ).loc main_arg1))⟩]
          concatenates_S100000x64_S100000x64_S100000x64_S100000x64_S100000x64_S100000x64_S100000x64_S100000x64_S100000x512_d1 := by
  have h := all_terms m c
  rw [entry_eq, concat_last, h.x, h.t1 (by omega), h.t2 (by omega), h.t3 (by omega), h.t4 (by omega), h.t5 (by omega),
    h.t6 (by omega), h.t7 (by omega)]

set_option maxHeartbeats 4000000 in
/-- The staged matrix: the weight, re-laid. -/
theorem matrix_eq :
    (entry m c main_v140 : S512x64.Idx → EReal)
      = shapeCast S512x64 (m ((c.tc : Thread nD τ).loc main_arg2)) shapeCasts_S8x64x64_S512x64 := by
  dsimp only [entry]
  simp only [hostOps0, hostOps0_1, hostOps0_2, List.flatten_cons, List.flatten_nil, List.append_nil, List.cons_append,
    List.nil_append]
  after_results_simp
  first | rfl | fail "matrix_eq: the two sides differ"

set_option maxHeartbeats 4000000 in
/-- The staged bias row: the bias, re-laid. -/
theorem bias_row_eq :
    (entry m c main_v141 : S1x64.Idx → EReal)
      = shapeCast S1x64 (m ((c.tc : Thread nD τ).loc main_arg3)) shapeCasts_S64_S1x64 := by
  dsimp only [entry]
  simp only [hostOps0, hostOps0_1, hostOps0_2, List.flatten_cons, List.flatten_nil, List.append_nil, List.cons_append,
    List.nil_append]
  after_results_simp
  first | rfl | fail "bias_row_eq: the two sides differ"

end Cert.KernelIdeal.Entry

end
-- ==== Proof.RefAt.lean ====
/-
  The idealized reference's result at one element, on the extended reals.

  The reference multiplies each Chebyshev term T_k ([100000, 64]; T_0 = x) by its own weight matrix W_k = weight[k]
  ([64, 64], a slice of the [8, 64, 64] weight with its unit axis dropped) and adds the eight products from the left,
  then the bias, then takes the maximum with zero:
      result (r, j) = max (((…((D_0 + D_1) + D_2) + …) + D_7) + bias j) 0,   D_k = Σ_{p < 64} T_k (r, p) · weight (k, p, j).
  The terms T_1 … T_7 are kept as the stages that compute them; nothing about the graph propagation is opened.
-/
import proofs.«148577_j7748121002165_1_alg».proof.Proof.RefReadP

noncomputable section

open scoped BigOperators

namespace Cert.ReferenceIdeal.At

open Cert.ReferenceIdeal Cert.ReferenceIdeal.Gen Cert.ReferenceIdeal.ReadP
open Idealize.ShloMosaic Idealize.ShloMosaic.ValueIdx

variable (x0 : (⟨S100000x64, .f32⟩ : BufTy).Contents (Elt Ideal)) (x1 : (⟨S2x1000000, .i32⟩ : BufTy).Contents (Elt Ideal))
  (x2 : (⟨S8x64x64, .f32⟩ : BufTy).Contents (Elt Ideal)) (x3 : (⟨S64, .f32⟩ : BufTy).Contents (Elt Ideal))

/-! ## The eight weight matrices -/

/-- Weight matrix 0 at row `p`, column `j`: the slice at 0 of the leading axis, its unit axis dropped. -/
theorem weight0 (p j : Fin 64) : val_main_v35 (F := Ideal) x2 (ix2 p j) = x2 (ix3 (0 : Fin 8) p j) := by
  rw [val_main_v35_apply, val_main_v34_apply]
  refine congrArg x2 (funext fun a => Fin.ext ?_)
  match a with
  | ⟨0, _⟩ => rfl
  | ⟨1, _⟩ => have := p.isLt; have := j.isLt; show (p.val * 64 + j.val) / 64 % 64 = p.val; omega
  | ⟨2, _⟩ => have := p.isLt; have := j.isLt; show (p.val * 64 + j.val) % 64 = j.val; omega

/-- Weight matrix 1 at row `p`, column `j`: the slice at 1 of the leading axis, its unit axis dropped. -/
theorem weight1 (p j : Fin 64) : val_main_v51 (F := Ideal) x2 (ix2 p j) = x2 (ix3 (1 : Fin 8) p j) := by
  rw [val_main_v51_apply, val_main_v50_apply]
  refine congrArg x2 (funext fun a => Fin.ext ?_)
  match a with
  | ⟨0, _⟩ => rfl
  | ⟨1, _⟩ => have := p.isLt; have := j.isLt; show (p.val * 64 + j.val) / 64 % 64 = p.val; omega
  | ⟨2, _⟩ => have := p.isLt; have := j.isLt; show (p.val * 64 + j.val) % 64 = j.val; omega

/-- Weight matrix 2 at row `p`, column `j`: the slice at 2 of the leading axis, its unit axis dropped. -/
theorem weight2 (p j : Fin 64) : val_main_v71 (F := Ideal) x2 (ix2 p j) = x2 (ix3 (2 : Fin 8) p j) := by
  rw [val_main_v71_apply, val_main_v70_apply]
  refine congrArg x2 (funext fun a => Fin.ext ?_)
  match a with
  | ⟨0, _⟩ => rfl
  | ⟨1, _⟩ => have := p.isLt; have := j.isLt; show (p.val * 64 + j.val) / 64 % 64 = p.val; omega
  | ⟨2, _⟩ => have := p.isLt; have := j.isLt; show (p.val * 64 + j.val) % 64 = j.val; omega

/-- Weight matrix 3 at row `p`, column `j`: the slice at 3 of the leading axis, its unit axis dropped. -/
theorem weight3 (p j : Fin 64) : val_main_v91 (F := Ideal) x2 (ix2 p j) = x2 (ix3 (3 : Fin 8) p j) := by
  rw [val_main_v91_apply, val_main_v90_apply]
  refine congrArg x2 (funext fun a => Fin.ext ?_)
  match a with
  | ⟨0, _⟩ => rfl
  | ⟨1, _⟩ => have := p.isLt; have := j.isLt; show (p.val * 64 + j.val) / 64 % 64 = p.val; omega
  | ⟨2, _⟩ => have := p.isLt; have := j.isLt; show (p.val * 64 + j.val) % 64 = j.val; omega

/-- Weight matrix 4 at row `p`, column `j`: the slice at 4 of the leading axis, its unit axis dropped. -/
theorem weight4 (p j : Fin 64) : val_main_v111 (F := Ideal) x2 (ix2 p j) = x2 (ix3 (4 : Fin 8) p j) := by
  rw [val_main_v111_apply, val_main_v110_apply]
  refine congrArg x2 (funext fun a => Fin.ext ?_)
  match a with
  | ⟨0, _⟩ => rfl
  | ⟨1, _⟩ => have := p.isLt; have := j.isLt; show (p.val * 64 + j.val) / 64 % 64 = p.val; omega
  | ⟨2, _⟩ => have := p.isLt; have := j.isLt; show (p.val * 64 + j.val) % 64 = j.val; omega

/-- Weight matrix 5 at row `p`, column `j`: the slice at 5 of the leading axis, its unit axis dropped. -/
theorem weight5 (p j : Fin 64) : val_main_v131 (F := Ideal) x2 (ix2 p j) = x2 (ix3 (5 : Fin 8) p j) := by
  rw [val_main_v131_apply, val_main_v130_apply]
  refine congrArg x2 (funext fun a => Fin.ext ?_)
  match a with
  | ⟨0, _⟩ => rfl
  | ⟨1, _⟩ => have := p.isLt; have := j.isLt; show (p.val * 64 + j.val) / 64 % 64 = p.val; omega
  | ⟨2, _⟩ => have := p.isLt; have := j.isLt; show (p.val * 64 + j.val) % 64 = j.val; omega

/-- Weight matrix 6 at row `p`, column `j`: the slice at 6 of the leading axis, its unit axis dropped. -/
theorem weight6 (p j : Fin 64) : val_main_v151 (F := Ideal) x2 (ix2 p j) = x2 (ix3 (6 : Fin 8) p j) := by
  rw [val_main_v151_apply, val_main_v150_apply]
  refine congrArg x2 (funext fun a => Fin.ext ?_)
  match a with
  | ⟨0, _⟩ => rfl
  | ⟨1, _⟩ => have := p.isLt; have := j.isLt; show (p.val * 64 + j.val) / 64 % 64 = p.val; omega
  | ⟨2, _⟩ => have := p.isLt; have := j.isLt; show (p.val * 64 + j.val) % 64 = j.val; omega

/-- Weight matrix 7 at row `p`, column `j`: the slice at 7 of the leading axis, its unit axis dropped. -/
theorem weight7 (p j : Fin 64) : val_main_v171 (F := Ideal) x2 (ix2 p j) = x2 (ix3 (7 : Fin 8) p j) := by
  rw [val_main_v171_apply, val_main_v170_apply]
  refine congrArg x2 (funext fun a => Fin.ext ?_)
  match a with
  | ⟨0, _⟩ => rfl
  | ⟨1, _⟩ => have := p.isLt; have := j.isLt; show (p.val * 64 + j.val) / 64 % 64 = p.val; omega
  | ⟨2, _⟩ => have := p.isLt; have := j.isLt; show (p.val * 64 + j.val) % 64 = j.val; omega

/-! ## The eight products -/

/-- Term 0 times weight matrix 0, at row `r` and column `j`: the sum over the 64 contracted columns. -/
theorem dot0 (r : Fin 100000) (j : Fin 64) :
    val_main_v36 (F := Ideal) x0 x2 (ix2 r j) = ∑ p : Fin 64, x0 (ix2 r p) * x2 (ix3 (0 : Fin 8) p j) := by
  rw [val_main_v36_apply]
  refine Finset.sum_congr rfl fun p _ => ?_
  have el : lidx_main_v36 (ix2 r j) p = ix2 r p :=
    funext fun a => Fin.ext (by match a with | ⟨0, _⟩ => rfl | ⟨1, _⟩ => rfl)
  have er : ridx_main_v36 (ix2 r j) p = ix2 p j :=
    funext fun a => Fin.ext (by match a with | ⟨0, _⟩ => rfl | ⟨1, _⟩ => rfl)
  rw [el, er, weight0]

/-- Term 1 times weight matrix 1, at row `r` and column `j`: the sum over the 64 contracted columns. -/
theorem dot1 (r : Fin 100000) (j : Fin 64) :
    val_main_v52 (F := Ideal) x0 x1 x2 (ix2 r j) = ∑ p : Fin 64, (val_main_v49 (F := Ideal) x0 x1) (ix2 r p) * x2 (ix3 (1 : Fin 8) p j) := by
  rw [val_main_v52_apply]
  refine Finset.sum_congr rfl fun p _ => ?_
  have el : lidx_main_v52 (ix2 r j) p = ix2 r p :=
    funext fun a => Fin.ext (by match a with | ⟨0, _⟩ => rfl | ⟨1, _⟩ => rfl)
  have er : ridx_main_v52 (ix2 r j) p = ix2 p j :=
    funext fun a => Fin.ext (by match a with | ⟨0, _⟩ => rfl | ⟨1, _⟩ => rfl)
  rw [el, er, weight1]

/-- Term 2 times weight matrix 2, at row `r` and column `j`: the sum over the 64 contracted columns. -/
theorem dot2 (r : Fin 100000) (j : Fin 64) :
    val_main_v72 (F := Ideal) x0 x1 x2 (ix2 r j) = ∑ p : Fin 64, (val_main_v69 (F := Ideal) x0 x1) (ix2 r p) * x2 (ix3 (2 : Fin 8) p j) := by
  rw [val_main_v72_apply]
  refine Finset.sum_congr rfl fun p _ => ?_
  have el : lidx_main_v72 (ix2 r j) p = ix2 r p :=
    funext fun a => Fin.ext (by match a with | ⟨0, _⟩ => rfl | ⟨1, _⟩ => rfl)
  have er : ridx_main_v72 (ix2 r j) p = ix2 p j :=
    funext fun a => Fin.ext (by match a with | ⟨0, _⟩ => rfl | ⟨1, _⟩ => rfl)
  rw [el, er, weight2]

/-- Term 3 times weight matrix 3, at row `r` and column `j`: the sum over the 64 contracted columns. -/
theorem dot3 (r : Fin 100000) (j : Fin 64) :
    val_main_v92 (F := Ideal) x0 x1 x2 (ix2 r j) = ∑ p : Fin 64, (val_main_v89 (F := Ideal) x0 x1) (ix2 r p) * x2 (ix3 (3 : Fin 8) p j) := by
  rw [val_main_v92_apply]
  refine Finset.sum_congr rfl fun p _ => ?_
  have el : lidx_main_v92 (ix2 r j) p = ix2 r p :=
    funext fun a => Fin.ext (by match a with | ⟨0, _⟩ => rfl | ⟨1, _⟩ => rfl)
  have er : ridx_main_v92 (ix2 r j) p = ix2 p j :=
    funext fun a => Fin.ext (by match a with | ⟨0, _⟩ => rfl | ⟨1, _⟩ => rfl)
  rw [el, er, weight3]

/-- Term 4 times weight matrix 4, at row `r` and column `j`: the sum over the 64 contracted columns. -/
theorem dot4 (r : Fin 100000) (j : Fin 64) :
    val_main_v112 (F := Ideal) x0 x1 x2 (ix2 r j) = ∑ p : Fin 64, (val_main_v109 (F := Ideal) x0 x1) (ix2 r p) * x2 (ix3 (4 : Fin 8) p j) := by
  rw [val_main_v112_apply]
  refine Finset.sum_congr rfl fun p _ => ?_
  have el : lidx_main_v112 (ix2 r j) p = ix2 r p :=
    funext fun a => Fin.ext (by match a with | ⟨0, _⟩ => rfl | ⟨1, _⟩ => rfl)
  have er : ridx_main_v112 (ix2 r j) p = ix2 p j :=
    funext fun a => Fin.ext (by match a with | ⟨0, _⟩ => rfl | ⟨1, _⟩ => rfl)
  rw [el, er, weight4]

/-- Term 5 times weight matrix 5, at row `r` and column `j`: the sum over the 64 contracted columns. -/
theorem dot5 (r : Fin 100000) (j : Fin 64) :
    val_main_v132 (F := Ideal) x0 x1 x2 (ix2 r j) = ∑ p : Fin 64, (val_main_v129 (F := Ideal) x0 x1) (ix2 r p) * x2 (ix3 (5 : Fin 8) p j) := by
  rw [val_main_v132_apply]
  refine Finset.sum_congr rfl fun p _ => ?_
  have el : lidx_main_v132 (ix2 r j) p = ix2 r p :=
    funext fun a => Fin.ext (by match a with | ⟨0, _⟩ => rfl | ⟨1, _⟩ => rfl)
  have er : ridx_main_v132 (ix2 r j) p = ix2 p j :=
    funext fun a => Fin.ext (by match a with | ⟨0, _⟩ => rfl | ⟨1, _⟩ => rfl)
  rw [el, er, weight5]

/-- Term 6 times weight matrix 6, at row `r` and column `j`: the sum over the 64 contracted columns. -/
theorem dot6 (r : Fin 100000) (j : Fin 64) :
    val_main_v152 (F := Ideal) x0 x1 x2 (ix2 r j) = ∑ p : Fin 64, (val_main_v149 (F := Ideal) x0 x1) (ix2 r p) * x2 (ix3 (6 : Fin 8) p j) := by
  rw [val_main_v152_apply]
  refine Finset.sum_congr rfl fun p _ => ?_
  have el : lidx_main_v152 (ix2 r j) p = ix2 r p :=
    funext fun a => Fin.ext (by match a with | ⟨0, _⟩ => rfl | ⟨1, _⟩ => rfl)
  have er : ridx_main_v152 (ix2 r j) p = ix2 p j :=
    funext fun a => Fin.ext (by match a with | ⟨0, _⟩ => rfl | ⟨1, _⟩ => rfl)
  rw [el, er, weight6]

/-- Term 7 times weight matrix 7, at row `r` and column `j`: the sum over the 64 contracted columns. -/
theorem dot7 (r : Fin 100000) (j : Fin 64) :
    val_main_v172 (F := Ideal) x0 x1 x2 (ix2 r j) = ∑ p : Fin 64, (val_main_v169 (F := Ideal) x0 x1) (ix2 r p) * x2 (ix3 (7 : Fin 8) p j) := by
  rw [val_main_v172_apply]
  refine Finset.sum_congr rfl fun p _ => ?_
  have el : lidx_main_v172 (ix2 r j) p = ix2 r p :=
    funext fun a => Fin.ext (by match a with | ⟨0, _⟩ => rfl | ⟨1, _⟩ => rfl)
  have er : ridx_main_v172 (ix2 r j) p = ix2 p j :=
    funext fun a => Fin.ext (by match a with | ⟨0, _⟩ => rfl | ⟨1, _⟩ => rfl)
  rw [el, er, weight7]

/-! ## The bias, the zero, and the result -/

/-- The bias broadcast over the rows, at row `r` and column `j`. -/
theorem bias_at (r : Fin 100000) (j : Fin 64) : val_main_v175 (F := Ideal) x3 (ix2 r j) = x3 (ix1 j) := by
  rw [val_main_v175_apply, val_main_v174_apply]
  refine congrArg x3 (funext fun a => Fin.ext ?_)
  match a with
  | ⟨0, _⟩ => rfl

/-- The zero the result is compared with. -/
theorem zero_at (i : S100000x64.Idx) : val_main_call1_v0 (F := Ideal) i = 0 := by
  rw [val_main_call1_v0_apply, val_main_call1_cst_apply, Ideal.ofBits_def, Ideal.ofBits_zero_f32]

/-- The reference's result at row `r` and column `j`. -/
theorem result_at (r : Fin 100000) (j : Fin 64) :
    val_main_v177 (F := Ideal) x0 x1 x2 x3 (ix2 r j)
      = max (((∑ p : Fin 64, x0 (ix2 r p) * x2 (ix3 (0 : Fin 8) p j))
          + (∑ p : Fin 64, (val_main_v49 (F := Ideal) x0 x1) (ix2 r p) * x2 (ix3 (1 : Fin 8) p j))
          + (∑ p : Fin 64, (val_main_v69 (F := Ideal) x0 x1) (ix2 r p) * x2 (ix3 (2 : Fin 8) p j))
          + (∑ p : Fin 64, (val_main_v89 (F := Ideal) x0 x1) (ix2 r p) * x2 (ix3 (3 : Fin 8) p j))
          + (∑ p : Fin 64, (val_main_v109 (F := Ideal) x0 x1) (ix2 r p) * x2 (ix3 (4 : Fin 8) p j))
          + (∑ p : Fin 64, (val_main_v129 (F := Ideal) x0 x1) (ix2 r p) * x2 (ix3 (5 : Fin 8) p j))
          + (∑ p : Fin 64, (val_main_v149 (F := Ideal) x0 x1) (ix2 r p) * x2 (ix3 (6 : Fin 8) p j))
          + (∑ p : Fin 64, (val_main_v169 (F := Ideal) x0 x1) (ix2 r p) * x2 (ix3 (7 : Fin 8) p j)))
        + x3 (ix1 j)) 0 := by
  rw [val_main_v177_apply, val_main_v176_apply, val_main_v173_apply, val_main_v153_apply, val_main_v133_apply,
    val_main_v113_apply, val_main_v93_apply, val_main_v73_apply, val_main_v53_apply,
    dot0, dot1, dot2, dot3, dot4, dot5, dot6, dot7, bias_at, zero_at]
  rfl

end Cert.ReferenceIdeal.At

end
-- ==== Proof.Blocks.lean ====
/-
  A sum over 512 columns, taken in eight groups of 64.

  Column q of a row of the eight Chebyshev terms laid side by side belongs to term q / 64 and is its column q % 64:
  q = p + 64·k with k < 8 and p < 64. Addition on any commutative monoid (the extended reals among them: their
  addition is commutative and associative everywhere, infinities included) lets the sum over the 512 columns be
  taken term by term, and the eight partial sums be added in the order the reference adds them, from the left.
  No finiteness is needed.
-/
import Mathlib.Algebra.BigOperators.Fin
import Mathlib.Algebra.BigOperators.Group.Finset.Basic
import Mathlib.Logic.Equiv.Fin.Basic

open scoped BigOperators

namespace Cert.Blocks

/-- The column of term `k` at its own column `p`. -/
def col (k : Fin 8) (p : Fin 64) : Fin 512 := ⟨p.val + 64 * k.val, by have := k.isLt; have := p.isLt; omega⟩

theorem col_div (k : Fin 8) (p : Fin 64) : (col k p).val / 64 = k.val := by
  have := k.isLt; have := p.isLt; show (p.val + 64 * k.val) / 64 = k.val; omega
theorem col_mod (k : Fin 8) (p : Fin 64) : (col k p).val % 64 = p.val := by
  have := k.isLt; have := p.isLt; show (p.val + 64 * k.val) % 64 = p.val; omega

/-- The 512 columns are the eight groups of 64, one after the other. -/
theorem sum_cols {M : Type*} [AddCommMonoid M] (g : Fin 512 → M) :
    ∑ q : Fin 512, g q = ∑ k : Fin 8, ∑ p : Fin 64, g (col k p) := by
  have e : ∑ x : Fin 8 × Fin 64, g ((finProdFinEquiv : Fin 8 × Fin 64 ≃ Fin (8 * 64)) x) = ∑ q : Fin 512, g q :=
    Equiv.sum_comp (finProdFinEquiv : Fin 8 × Fin 64 ≃ Fin (8 * 64)) g
  rw [← e, Fintype.sum_prod_type]
  rfl

/-- A sum over the 512 columns whose summand, on group `k`, is `s k`: the eight group sums added from the left. -/
theorem sum_by_term {M : Type*} [AddCommMonoid M] (g : Fin 512 → M) (s : Fin 8 → Fin 64 → M)
    (h : ∀ (k : Fin 8) (p : Fin 64), g (col k p) = s k p) :
    ∑ q : Fin 512, g q
      = (∑ p, s 0 p) + (∑ p, s 1 p) + (∑ p, s 2 p) + (∑ p, s 3 p) + (∑ p, s 4 p) + (∑ p, s 5 p) + (∑ p, s 6 p)
        + (∑ p, s 7 p) := by
  rw [sum_cols, Fin.sum_univ_eight]
  simp only [h]

end Cert.Blocks
-- ==== Proof.Bridge.lean ====
/-
  The kernel's combination is the reference's result, element by element, on the extended reals.

  Kernel:     max (Σ_{q < 512} T (r, q) · W (q, j) + B (0, j)) 0, with T the eight terms side by side, W the eight
              weight matrices one above the other, B the bias as a row.
  Reference:  max (((D_0 + D_1) + … + D_7) + bias j) 0, D_k = Σ_{p < 64} T_k (r, p) · weight (k, p, j).
  Column q = p + 64·k of T is column p of term k, and row q of W is row p of weight matrix k, so the summand at q is
  T_k (r, p) · weight (k, p, j); the sum over the 512 columns is then the eight sums over 64 added from the left
  (commutativity and associativity of addition only: no finiteness is used, and the precondition is never opened).
-/
import proofs.«148577_j7748121002165_1_alg».proof.Proof.KernelWhole
import proofs.«148577_j7748121002165_1_alg».proof.Proof.RefAt
import proofs.«148577_j7748121002165_1_alg».proof.Proof.Blocks
import Idealize.ShloMosaic.Lib.ValueLayout

noncomputable section

open scoped BigOperators

namespace Cert.Bridge

open Cert.KernelIdeal Cert.KernelIdeal.Gen Cert.KernelIdeal.Whole Cert.Blocks
open Idealize.ShloMosaic Idealize.ShloMosaic.ValueIdx

variable (x0 : S100000x64.Idx → EReal) (x1 : (⟨S2x1000000, .i32⟩ : BufTy).Contents (Elt Ideal))
  (x2 : S8x64x64.Idx → EReal) (x3 : S64.Idx → EReal)

/-- The eight Chebyshev terms: x, then the reference's stages for L̂x and the recursion. -/
def term : Fin 8 → (S100000x64.Idx → EReal)
  | 0 => x0
  | 1 => Cert.ReferenceIdeal.ReadP.val_main_v49 (F := Ideal) x0 x1
  | 2 => Cert.ReferenceIdeal.ReadP.val_main_v69 (F := Ideal) x0 x1
  | 3 => Cert.ReferenceIdeal.ReadP.val_main_v89 (F := Ideal) x0 x1
  | 4 => Cert.ReferenceIdeal.ReadP.val_main_v109 (F := Ideal) x0 x1
  | 5 => Cert.ReferenceIdeal.ReadP.val_main_v129 (F := Ideal) x0 x1
  | 6 => Cert.ReferenceIdeal.ReadP.val_main_v149 (F := Ideal) x0 x1
  | 7 => Cert.ReferenceIdeal.ReadP.val_main_v169 (F := Ideal) x0 x1

/-- The terms side by side. -/
def sideBySide : S100000x512.Idx → EReal :=
  concatenate S100000x512 1
    [⟨S100000x64, x0⟩,
     ⟨S100000x64, Cert.ReferenceIdeal.ReadP.val_main_v49 (F := Ideal) x0 x1⟩,
     ⟨S100000x64, Cert.ReferenceIdeal.ReadP.val_main_v69 (F := Ideal) x0 x1⟩,
     ⟨S100000x64, Cert.ReferenceIdeal.ReadP.val_main_v89 (F := Ideal) x0 x1⟩,
     ⟨S100000x64, Cert.ReferenceIdeal.ReadP.val_main_v109 (F := Ideal) x0 x1⟩,
     ⟨S100000x64, Cert.ReferenceIdeal.ReadP.val_main_v129 (F := Ideal) x0 x1⟩,
     ⟨S100000x64, Cert.ReferenceIdeal.ReadP.val_main_v149 (F := Ideal) x0 x1⟩,
     ⟨S100000x64, Cert.ReferenceIdeal.ReadP.val_main_v169 (F := Ideal) x0 x1⟩]
    concatenates_S100000x64_S100000x64_S100000x64_S100000x64_S100000x64_S100000x64_S100000x64_S100000x64_S100000x512_d1

/-- Column `p + 64·k` of the terms side by side is column `p` of term `k`. -/
theorem sideBySide_at (r : Fin 100000) (k : Fin 8) (p : Fin 64) :
    sideBySide x0 x1 (ix2 r (col k p)) = term x0 x1 k (ix2 r p) := by
  show concatenate S100000x512 (1 : Fin 2)
      (List.ofFn fun n : Fin 8 => (⟨S100000x64, term x0 x1 n⟩ : (s : Shape) × (s.Idx → EReal)))
      concatenates_S100000x64_S100000x64_S100000x64_S100000x64_S100000x64_S100000x64_S100000x64_S100000x64_S100000x512_d1
      (ix2 r (col k p)) = _
  exact concatenate_ofFn_apply (t := S100000x512) (s₁ := S100000x64) (1 : Fin 2) (term x0 x1) _ rfl 64 rfl (ix2 r (col k p)) k (col_div k p) (ix2 r p)
    (col_mod k p).symm (fun b hb => by
      match b with
      | ⟨0, _⟩ => rfl
      | ⟨1, _⟩ => exact absurd rfl hb)

/-- Row `p + 64·k` of the re-laid weight is row `p` of weight matrix `k`. -/
theorem relaid_weight_at (k : Fin 8) (p j : Fin 64) :
    shapeCast S512x64 x2 shapeCasts_S8x64x64_S512x64 (ix2 (col k p) j) = x2 (ix3 k p j) :=
  shapeCast_apply x2 shapeCasts_S8x64x64_S512x64 (ix2 (col k p) j) (ix3 k p j) (by
    rw [Shape.rowMajor_val_three, Shape.rowMajor_val_two]
    have := k.isLt; have := p.isLt; have := j.isLt
    show (k.val * 64 + p.val) * 64 + j.val = (p.val + 64 * k.val) * 64 + j.val
    omega)

/-- The bias as a row. -/
theorem bias_row_at (j : Fin 64) : shapeCast S1x64 x3 shapeCasts_S64_S1x64 (ix2 (0 : Fin 1) j) = x3 (ix1 j) :=
  shapeCast_a_1a_apply x3 shapeCasts_S64_S1x64 0 j

/-- The kernel's combination of the terms side by side, the re-laid weight and the bias row is the reference's result. -/
theorem combine_eq :
    combine (sideBySide x0 x1) (shapeCast S512x64 x2 shapeCasts_S8x64x64_S512x64) (shapeCast S1x64 x3 shapeCasts_S64_S1x64)
      = Cert.ReferenceIdeal.ReadP.val_main_v177 (F := Ideal) x0 x1 x2 x3 := by
  funext i
  obtain ⟨r, j, rfl⟩ : ∃ (r : Fin 100000) (j : Fin 64), i = ix2 r j := ⟨i 0, i 1, eq_ix2 (n0 := 100000) (n1 := 64) i⟩
  refine Eq.trans ?_ (Cert.ReferenceIdeal.At.result_at x0 x1 x2 x3 r j).symm
  show combineAt (sideBySide x0 x1) (shapeCast S512x64 x2 shapeCasts_S8x64x64_S512x64)
    (shapeCast S1x64 x3 shapeCasts_S64_S1x64) r j = _
  unfold combineAt
  rw [bias_row_at,
    sum_by_term (fun q : Fin 512 => sideBySide x0 x1 (ix2 r q) * shapeCast S512x64 x2 shapeCasts_S8x64x64_S512x64 (ix2 q j))
      (fun k p => term x0 x1 k (ix2 r p) * x2 (ix3 k p j))
      (fun k p => by rw [sideBySide_at, relaid_weight_at])]
  rfl

end Cert.Bridge

end
-- ==== Proof.lean ====
/-
  A Chebyshev graph convolution with eight hops, bias and ReLU: the kernel's program against its reference.

  Both programs compute, on the host, the eight Chebyshev terms T_0 = x, T_1 = L̂x, T_k = 2·L̂ T_{k-1} − T_{k-2} of the
  scaled graph Laplacian L̂ (degree count by scatter-add, symmetric normalisation, gather of source rows, scaling,
  scatter-add to destination rows), by the same operations of the same arguments.
  The reference then forms  max (((T_0·W_0 + T_1·W_1) + … + T_7·W_7) + bias) 0  with eight [64, 64] products.
  The kernel's program lays the terms side by side as one [100000, 512] array and the weight matrices one above the
  other as one [512, 64] matrix, and a pipelined region of 25 grid points computes, 4000 rows at a time,
  max (T·W + bias) 0 with one product over 512 columns (its operands rounded to bf16 on the way in: the identity on
  the extended reals).

  Frames: the kernel's program (at the word-level instance and at the extended reals) runs its 180 host operations,
  then the region, whose body is run once symbolically on whole staging buffers; no operation writes an argument.
  The reference is host operations only, and its frame is its run with the result dropped.
  Idealization: the ideal pass rewrote nothing, so there is nothing to preserve.
  Equivalence on the extended reals: element (r, j) of the kernel's result is
  max (Σ_{q<512} T(r,q)·W(q,j) + bias j) 0; column q = p + 64k of T is column p of T_k and row q of W is row p of W_k,
  so the sum over 512 columns is the eight sums over 64 columns added from the left, which is the reference's
  element. Only commutativity and associativity of addition are used; the precondition is not needed for the value.
-/
import proofs.«148577_j7748121002165_1_alg».proof.Defs
import proofs.«148577_j7748121002165_1_alg».proof.Proof.Gen.Kernel
import proofs.«148577_j7748121002165_1_alg».proof.Proof.Gen.KernelIdeal
import proofs.«148577_j7748121002165_1_alg».proof.Proof.Gen.ReferenceIdeal
import proofs.«148577_j7748121002165_1_alg».proof.Proof.Gen.Pre_finite_inputs
import proofs.«148577_j7748121002165_1_alg».proof.Proof.RefRunP
import proofs.«148577_j7748121002165_1_alg».proof.Proof.RefReadP
import proofs.«148577_j7748121002165_1_alg».proof.Proof.KernelFrame
import proofs.«148577_j7748121002165_1_alg».proof.Proof.KernelIdealFrame
import proofs.«148577_j7748121002165_1_alg».proof.Proof.KernelWhole
import proofs.«148577_j7748121002165_1_alg».proof.Proof.KernelEntry
import proofs.«148577_j7748121002165_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program at the word-level instance runs to the end and leaves its arguments as launched. -/
theorem frame_kernel : Cert.frame_Kernel := fun m ρ _ => Cert.Kernel.Launched.frame m ρ

/-- The same program read on the extended reals. -/
theorem frame_kernel_ideal : Cert.frame_KernelIdeal := fun m ρ _ => Cert.KernelIdeal.Launched.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- On the extended reals, from memories agreeing on the four arguments, both programs end with the same result:
    the kernel's at the combination of the three arrays its region stages, which are the terms side by side, the
    re-laid weight and the bias row; the reference's at its last stage; one function, element by element. -/
theorem algebraic : Cert.algebraic_KernelIdeal_ReferenceIdeal := by
  intro m ρ m' ρ' _ hagree
  refine ⟨fun c => Cert.KernelIdeal.Whole.combine
      (Cert.KernelIdeal.Launched.entry m c Cert.KernelIdeal.main_v139)
      (Cert.KernelIdeal.Launched.entry m c Cert.KernelIdeal.main_v140)
      (Cert.KernelIdeal.Launched.entry m c Cert.KernelIdeal.main_v141),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  have e := Cert.ReferenceIdeal.ReadP.val_main_v177_eq (F := Ideal) m' c
  rw [(hagree c).1, (hagree c).2.1, (hagree c).2.2.1, (hagree c).2.2.2] at e
  refine e.trans ?_
  show _ = Cert.KernelIdeal.Whole.combine
      (Cert.KernelIdeal.Launched.entry m c Cert.KernelIdeal.main_v139)
      (Cert.KernelIdeal.Launched.entry m c Cert.KernelIdeal.main_v140)
      (Cert.KernelIdeal.Launched.entry m c Cert.KernelIdeal.main_v141)
  rw [Cert.KernelIdeal.Entry.terms_eq m c, Cert.KernelIdeal.Entry.matrix_eq m c, Cert.KernelIdeal.Entry.bias_row_eq m c]
  exact (Cert.Bridge.combine_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
